-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4 : Shape := ⟨3, ![8, 2048, 4]⟩
abbrev S_ : Shape := ⟨0, ![]⟩

class Facts : Prop where
  bcast_S_S8x2048x4 : S_.BroadcastsInDim S8x2048x4 (![] : Fin 0 → Fin S8x2048x4.rank)
  reducesTo_S8x2048x4_S_d0_1_2 : S8x2048x4.ReducesTo [0, 1, 2] S_
  h_S_ : 0 < S_.numel

variable [Facts]

def fn_part1 {F : FTy → Type} [FloatOps F] (main_v13 : IVec S_ 1) (main_v16 : IVec S8x2048x4 1) : IVec S_ 1 :=
  let main_c_5 : IVec S_ 1 := constantI S_ 1 1#1
  let main_v17 : IVec S_ 1 := (fun x v => Host.reduce IntOp.andi x v reducesTo_S8x2048x4_S_d0_1_2 h_S_) main_v16 main_c_5
  let main_v18 : IVec S_ 1 := andi main_v13 main_v17
  main_v18

def fn {F : FTy → Type} [FloatOps F] (main_arg0 : FVec F S8x2048x4 .f32) (main_arg1 : FVec F S8x2048x4 .f32) (main_arg2 : FVec F S8x2048x4 .f32) (main_arg3 : FVec F S8x2048x4 .f32) : IVec S_ 1 :=
  let main_v0 : FVec F S8x2048x4 .f32 := Host.absf main_arg0
  let main_cst : FVec F S_ .f32 := constant S_ .f32 0x7F800000#32
  let main_v1 : FVec F S8x2048x4 .f32 := broadcastInDim S8x2048x4 ![] bcast_S_S8x2048x4 main_cst
  let main_v2 : IVec S8x2048x4 1 := cmpf .olt main_v0 main_v1
  let main_c : IVec S_ 1 := constantI S_ 1 1#1
  let main_v3 : IVec S_ 1 := (fun x v => Host.reduce IntOp.andi x v reducesTo_S8x2048x4_S_d0_1_2 h_S_) main_v2 main_c
  let main_v4 : FVec F S8x2048x4 .f32 := Host.absf main_arg1
  let main_cst_0 : FVec F S_ .f32 := constant S_ .f32 0x7F800000#32
  let main_v5 : FVec F S8x2048x4 .f32 := broadcastInDim S8x2048x4 ![] bcast_S_S8x2048x4 main_cst_0
  let main_v6 : IVec S8x2048x4 1 := cmpf .olt main_v4 main_v5
  let main_c_1 : IVec S_ 1 := constantI S_ 1 1#1
  let main_v7 : IVec S_ 1 := (fun x v => Host.reduce IntOp.andi x v reducesTo_S8x2048x4_S_d0_1_2 h_S_) main_v6 main_c_1
  let main_v8 : IVec S_ 1 := andi main_v3 main_v7
  let main_v9 : FVec F S8x2048x4 .f32 := Host.absf main_arg2
  let main_cst_2 : FVec F S_ .f32 := constant S_ .f32 0x7F800000#32
  let main_v10 : FVec F S8x2048x4 .f32 := broadcastInDim S8x2048x4 ![] bcast_S_S8x2048x4 main_cst_2
  let main_v11 : IVec S8x2048x4 1 := cmpf .olt main_v9 main_v10
  let main_c_3 : IVec S_ 1 := constantI S_ 1 1#1
  let main_v12 : IVec S_ 1 := (fun x v => Host.reduce IntOp.andi x v reducesTo_S8x2048x4_S_d0_1_2 h_S_) main_v11 main_c_3
  let main_v13 : IVec S_ 1 := andi main_v8 main_v12
  let main_v14 : FVec F S8x2048x4 .f32 := Host.absf main_arg3
  let main_cst_4 : FVec F S_ .f32 := constant S_ .f32 0x7F800000#32
  let main_v15 : FVec F S8x2048x4 .f32 := broadcastInDim S8x2048x4 ![] bcast_S_S8x2048x4 main_cst_4
  let main_v16 : IVec S8x2048x4 1 := cmpf .olt main_v14 main_v15
  fn_part1 (F := F) main_v13 main_v16
-- ==== Kernel.lean ====
abbrev S8x2048x4 : Shape := ⟨3, ![8, 2048, 4]⟩
abbrev S_ : Shape := ⟨0, ![]⟩
abbrev S8x2048 : Shape := ⟨2, ![8, 2048]⟩
abbrev S8x2048x8 : Shape := ⟨3, ![8, 2048, 8]⟩
abbrev S8x8x2048 : Shape := ⟨3, ![8, 8, 2048]⟩
abbrev S8 : Shape := ⟨1, ![8]⟩
abbrev S8x8x128 : Shape := ⟨3, ![8, 8, 128]⟩
abbrev S8x128 : Shape := ⟨2, ![8, 128]⟩
abbrev S8x1 : Shape := ⟨2, ![8, 1]⟩
abbrev S8x128x2048 : Shape := ⟨3, ![8, 128, 2048]⟩
abbrev S8x128x1 : Shape := ⟨3, ![8, 128, 1]⟩
abbrev S8x1x2048 : Shape := ⟨3, ![8, 1, 2048]⟩

abbrev nBuf : Space → Nat
  | .hbm => 37
  | .vmem => 9
  | .smem => 0
  | _ => 0

abbrev bufTy : (tb : Table) → Fin (tcTables nBuf tb) → BufTy
  | .hbm, ⟨0, _⟩ => ⟨S8x2048x4, .f32⟩
  | .hbm, ⟨1, _⟩ => ⟨S8x2048x4, .f32⟩
  | .hbm, ⟨2, _⟩ => ⟨S8x2048x4, .f32⟩
  | .hbm, ⟨3, _⟩ => ⟨S8x2048x4, .f32⟩
  | .hbm, ⟨4, _⟩ => ⟨S8x2048x4, .f32⟩
  | .hbm, ⟨5, _⟩ => ⟨S8x2048x4, .f32⟩
  | .hbm, ⟨6, _⟩ => ⟨S_, .f32⟩
  | .hbm, ⟨7, _⟩ => ⟨S8x2048, .f32⟩
  | .hbm, ⟨8, _⟩ => ⟨S8x2048x4, .f32⟩
  | .hbm, ⟨9, _⟩ => ⟨S8x2048x4, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S_, .f32⟩
  | .hbm, ⟨14, _⟩ => ⟨S8x2048, .f32⟩
  | .hbm, ⟨15, _⟩ => ⟨S8x2048, .f32⟩
  | .hbm, ⟨16, _⟩ => ⟨S8x2048x4, .f32⟩
  | .hbm, ⟨17, _⟩ => ⟨S8x2048x4, .f32⟩
  | .hbm, ⟨18, _⟩ => ⟨S8x2048x8, .f32⟩
  | .hbm, ⟨19, _⟩ => ⟨S_, .f32⟩
  | .hbm, ⟨20, _⟩ => ⟨S8x2048, .f32⟩
  | .hbm, ⟨21, _⟩ => ⟨S_, .f32⟩
  | .hbm, ⟨22, _⟩ => ⟨S8x2048, .f32⟩
  | .hbm, ⟨23, _⟩ => ⟨S8x2048, .f32⟩
  | .hbm, ⟨24, _⟩ => ⟨S_, .f32⟩
  | .hbm, ⟨25, _⟩ => ⟨S8x2048, .f32⟩
  | .hbm, ⟨26, _⟩ => ⟨S8x2048, .f32⟩
  | .hbm, ⟨27, _⟩ => ⟨S8x2048x4, .f32⟩
  | .hbm, ⟨28, _⟩ => ⟨S8x2048x4, .f32⟩
  | .hbm, ⟨29, _⟩ => ⟨S8x2048x4, .f32⟩
  | .hbm, ⟨30, _⟩ => ⟨S_, .f32⟩
  | .hbm, ⟨31, _⟩ => ⟨S8x2048x4, .f32⟩
  | .hbm, ⟨32, _⟩ => ⟨S8x2048x4, .f32⟩
  | .hbm, ⟨33, _⟩ => ⟨S8x2048x8, .f32⟩
  | .hbm, ⟨34, _⟩ => ⟨S8x8x2048, .f32⟩
  | .hbm, ⟨35, _⟩ => ⟨S8x8x2048, .f32⟩
  | .hbm, ⟨36, _⟩ => ⟨S8, .f32⟩
  | .local _ .vmem, ⟨0, _⟩ => ⟨S8x8x128, .f32⟩
  | .local _ .vmem, ⟨1, _⟩ => ⟨S8x8x128, .f32⟩
  | .local _ .vmem, ⟨2, _⟩ => ⟨S8x128, .f32⟩
  | .local _ .vmem, ⟨3, _⟩ => ⟨S8x128, .f32⟩
  | .local _ .vmem, ⟨4, _⟩ => ⟨S8x8x2048, .f32⟩
  | .local _ .vmem, ⟨5, _⟩ => ⟨S8x2048, .f32⟩
  | .local _ .vmem, ⟨6, _⟩ => ⟨S8, .f32⟩
  | .local _ .vmem, ⟨7, _⟩ => ⟨S8x2048, .f32⟩
  | .local _ .vmem, ⟨8, _⟩ => ⟨S8x1, .f32⟩
  | _, _ => ⟨S8x2048x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v32 : BitVec 1 := Scalar.cmpi .eq arg0 c15_i32
  let v33 : BitVec 32 := Scalar.extui v32
  let c0_i32_21 : BitVec 32 := 0#32
  let v34 : BitVec 1 := Scalar.cmpi .ne v33 c0_i32_21
  v34

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S8x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  reducesTo_S8x2048x4_S8x2048_d2 : S8x2048x4.ReducesTo [2] S8x2048
  h_S_ : 0 < S_.numel
  bcast_S_S8x2048 : S_.BroadcastsInDim S8x2048 (![] : Fin 0 → Fin S8x2048.rank)
  concatenates_S8x2048x4_S8x2048x4_S8x2048x8_d2 : Shape.Concatenates [S8x2048x4, S8x2048x4] S8x2048x8 2
  bcast_S_S8x2048x4 : S_.BroadcastsInDim S8x2048x4 (![] : Fin 0 → Fin S8x2048x4.rank)
  transposes_S8x2048x8_S8x8x2048_0_2_1 : S8x2048x8.Transposes [0, 2, 1] S8x8x2048
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S8x8x128_S8x8x128_0_0_0 : ∀ a, (![0, 0, 0] : Fin 3 → Nat) a + S8x8x128.size a ≤ S8x8x128.size a
  h_S8x8x128 : 0 < S8x8x128.numel
  shapeCasts_S8x8x128_S8x8x128 : S8x8x128.ShapeCasts S8x8x128
  inb_S8x8x2048_S8x8x2048_0_0_0 : ∀ a, (![0, 0, 0] : Fin 3 → Nat) a + S8x8x2048.size a ≤ S8x8x2048.size a
  h_S8x8x2048 : 0 < S8x8x2048.numel
  shapeCasts_S8x8x2048_S8x8x2048 : S8x8x2048.ShapeCasts S8x8x2048
  inb_S8x128_S8x128_0_0 : ∀ a, (![0, 0] : Fin 2 → Nat) a + S8x128.size a ≤ S8x128.size a
  h_S8x128 : 0 < S8x128.numel
  shapeCasts_S8x128_S8x128 : S8x128.ShapeCasts S8x128
  shapeCasts_S8x128_S8x128x1 : S8x128.ShapeCasts S8x128x1
  broadcasts_S8x128x1_S8x128x2048 : S8x128x1.Broadcasts S8x128x2048
  shapeCasts_S8x2048_S8x1x2048 : S8x2048.ShapeCasts S8x1x2048
  broadcasts_S8x1x2048_S8x128x2048 : S8x1x2048.Broadcasts S8x128x2048
  reduces_S8x128x2048_S8x128 : S8x128x2048.Reduces [2] S8x128
  reduces_S8x128_S8 : S8x128.Reduces [1] S8
  shapeCasts_S8_S8x1 : S8.ShapeCasts S8x1
  reduces_S8x128x2048_S8x2048 : S8x128x2048.Reduces [1] S8x2048
  reduces_S8x2048_S8 : S8x2048.Reduces [1] S8
  shapeCasts_S8x1_S8 : S8x1.ShapeCasts S8
  inb_S8_S8_0 : ∀ a, (![0] : Fin 1 → Nat) a + S8.size a ≤ S8.size a
  h_S8 : 0 < S8.numel
  dot_S8x8x128_S8x8x2048_S8x128x2048_1_1_2_2_0_0_wf : DotDims.WF S8x8x128 S8x8x2048 S8x128x2048 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x8x128.size a ≤ S8x8x2048.size a
  hwx0_0 : ∀ i : grid0.Coords, EltTy.bits .f32 = 32 ∨ (Rect.block (s := S8x8x2048) S8x8x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S8x2048.size a
  hwx0_1 : ∀ i : grid0.Coords, EltTy.bits .f32 = 32 ∨ (Rect.block (s := S8x2048) S8x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x8x2048.size a ≤ S8x8x2048.size a
  hwx0_2 : ∀ i : grid0.Coords, EltTy.bits .f32 = 32 ∨ (Rect.block (s := S8x8x2048) S8x8x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x2048.size a ≤ S8x2048.size a
  hwx0_3 : ∀ i : grid0.Coords, EltTy.bits .f32 = 32 ∨ (Rect.block (s := S8x2048) S8x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8.size a ≤ S8.size a
  hwx0_4 : ∀ i : grid0.Coords, EltTy.bits .f32 = 32 ∨ (Rect.block (s := S8) S8.size (cc0_transform_4 i) (hinb0_4 i)).WholeWords (EltTy.packing .f32)

variable [Facts₀]

def dot_S8x8x128_S8x8x2048_S8x128x2048_1_1_2_2_0_0 : DotDims S8x8x128 S8x8x2048 S8x128x2048 where
  lhsContracting := [1]
  rhsContracting := [1]
  lhsNonContracting := [2]
  rhsNonContracting := [2]
  lhsBatch := [0]
  rhsBatch := [0]
  wf := dot_S8x8x128_S8x8x2048_S8x128x2048_1_1_2_2_0_0_wf

abbrev win0_0 : Pipeline.Window sig grid0 :=
  Pipeline.Window.ofSpec (Memref.whole main_v23) S8x8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S8x8x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S8x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S8.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x2048x4 : Shape := ⟨3, ![8, 2048, 4]⟩
abbrev S_ : Shape := ⟨0, ![]⟩
abbrev S8x2048 : Shape := ⟨2, ![8, 2048]⟩
abbrev S8x2048x2048 : Shape := ⟨3, ![8, 2048, 2048]⟩
abbrev S8x1x2048 : Shape := ⟨3, ![8, 1, 2048]⟩
abbrev S8x2048x1 : Shape := ⟨3, ![8, 2048, 1]⟩
abbrev S8 : Shape := ⟨1, ![8]⟩

abbrev nBuf : Space → Nat
  | .hbm => 49
  | .vmem => 0
  | .smem => 0
  | _ => 0

abbrev bufTy : (tb : Table) → Fin (tcTables nBuf tb) → BufTy
  | .hbm, ⟨0, _⟩ => ⟨S8x2048x4, .f32⟩
  | .hbm, ⟨1, _⟩ => ⟨S8x2048x4, .f32⟩
  | .hbm, ⟨2, _⟩ => ⟨S8x2048x4, .f32⟩
  | .hbm, ⟨3, _⟩ => ⟨S8x2048x4, .f32⟩
  | .hbm, ⟨4, _⟩ => ⟨S8x2048x4, .f32⟩
  | .hbm, ⟨5, _⟩ => ⟨S8x2048x4, .f32⟩
  | .hbm, ⟨6, _⟩ => ⟨S_, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048x4, .f32⟩
  | .hbm, ⟨11, _⟩ => ⟨S8x2048x2048, .f32⟩
  | .hbm, ⟨12, _⟩ => ⟨S8x2048x4, .f32⟩
  | .hbm, ⟨13, _⟩ => ⟨S8x2048x2048, .f32⟩
  | .hbm, ⟨14, _⟩ => ⟨S8x2048x4, .f32⟩
  | .hbm, ⟨15, _⟩ => ⟨S8x2048x2048, .f32⟩
  | .hbm, ⟨16, _⟩ => ⟨S_, .f32⟩
  | .hbm, ⟨17, _⟩ => ⟨S8x2048x2048, .f32⟩
  | .hbm, ⟨18, _⟩ => ⟨S8x2048x2048, .f32⟩
  | .hbm, ⟨19, _⟩ => ⟨S8x2048x2048, .f32⟩
  | .hbm, ⟨20, _⟩ => ⟨S8x2048x4, .f32⟩
  | .hbm, ⟨21, _⟩ => ⟨S8x2048x4, .f32⟩
  | .hbm, ⟨22, _⟩ => ⟨S_, .f32⟩
  | .hbm, ⟨23, _⟩ => ⟨S8x2048, .f32⟩
  | .hbm, ⟨24, _⟩ => ⟨S8x1x2048, .f32⟩
  | .hbm, ⟨25, _⟩ => ⟨S8x2048x2048, .f32⟩
  | .hbm, ⟨26, _⟩ => ⟨S8x2048x2048, .f32⟩
  | .hbm, ⟨27, _⟩ => ⟨S8x2048x1, .f32⟩
  | .hbm, ⟨28, _⟩ => ⟨S_, .f32⟩
  | .hbm, ⟨29, _⟩ => ⟨S8x2048x1, .f32⟩
  | .hbm, ⟨30, _⟩ => ⟨S8x2048x1, .f32⟩
  | .hbm, ⟨31, _⟩ => ⟨S8x1x2048, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S_, .f32⟩
  | .hbm, ⟨38, _⟩ => ⟨S8x2048x2048, .f32⟩
  | .hbm, ⟨39, _⟩ => ⟨S8x2048x2048, .f32⟩
  | .hbm, ⟨40, _⟩ => ⟨S_, .f32⟩
  | .hbm, ⟨41, _⟩ => ⟨S8x2048, .f32⟩
  | .hbm, ⟨42, _⟩ => ⟨S_, .f32⟩
  | .hbm, ⟨43, _⟩ => ⟨S8, .f32⟩
  | .hbm, ⟨44, _⟩ => ⟨S_, .f32⟩
  | .hbm, ⟨45, _⟩ => ⟨S8x2048, .f32⟩
  | .hbm, ⟨46, _⟩ => ⟨S_, .f32⟩
  | .hbm, ⟨47, _⟩ => ⟨S8, .f32⟩
  | .hbm, ⟨48, _⟩ => ⟨S8, .f32⟩
  | _, _ => ⟨S8x2048x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]

class Facts₀ : Prop where
  reducesTo_S8x2048x4_S8x2048_d2 : S8x2048x4.ReducesTo [2] S8x2048
  h_S_ : 0 < S_.numel
  bcast_S_S8x2048x2048 : S_.BroadcastsInDim S8x2048x2048 (![] : Fin 0 → Fin S8x2048x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x2048_0_1_2 : S8x2048x1.BroadcastsInDim S8x2048x2048 (![0, 1, 2] : Fin 3 → Fin S8x2048x2048.rank)
  reducesTo_S8x2048x2048_S8x2048_d1 : S8x2048x2048.ReducesTo [1] S8x2048
  reducesTo_S8x2048_S8_d1 : S8x2048.ReducesTo [1] S8
  reducesTo_S8x2048x2048_S8x2048_d2 : S8x2048x2048.ReducesTo [2] S8x2048
  dot_S8x2048x4_S8x2048x4_S8x2048x2048_2_2_1_1_0_0_wf : DotDims.WF S8x2048x4 S8x2048x4 S8x2048x2048 [2] [2] [1] [1] [0] [0]

variable [Facts₀]

def dot_S8x2048x4_S8x2048x4_S8x2048x2048_2_2_1_1_0_0 : DotDims S8x2048x4 S8x2048x4 S8x2048x2048 where
  lhsContracting := [2]
  rhsContracting := [2]
  lhsNonContracting := [1]
  rhsNonContracting := [1]
  lhsBatch := [0]
  rhsBatch := [0]
  wf := dot_S8x2048x4_S8x2048x4_S8x2048x2048_2_2_1_1_0_0_wf

class Facts : Prop extends Facts₀ where

variable [Facts]
-- ==== Proof.KernelPieces.lean ====
/-
  WHAT EACH POINT OF THE GRID LEAVES BEHIND, AS VALUES.

  The kernel visits the 2048 predicted Gaussians in sixteen tiles of 128. It carries two scratch buffers from one
  tile to the next: the running column minimum (shape [8, 2048]: for each batch and each target Gaussian, the least
  divergence over the predicted Gaussians seen so far) and the running sum of row minima (shape [8, 1]). Three kinds of
  point occur: the first (which first resets the two buffers to +inf and to 0), the middle ones, and the last (which
  after its update also writes the result). The generated run of each kind records the stores it met as a list of
  pieces; here each list is read back as ONE value, a payload of the point's input blocks and of what the point before
  left:
    first point :  column minima  = update(+inf block),  row-minimum sum = update(zero block);
    later points:  column minima  = update(previous),    row-minimum sum = update(previous);
    last point  :  result = total(column minima after the update, row-minimum sum after the update).
  Every store covers its whole buffer from offset zero, so a read-back of a buffer is the last payload stored into it,
  and a load of an input buffer is the block it holds. Nothing here depends on the float instance.
-/
import proofs.«153607_j72688026517737_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The stores and loads of the body all start at offset zero of their buffers. -/
theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- A middle point leaves in the column-minimum buffer its update of what the point before left. -/
theorem colmin_B (c : Dev nD) (i : grid0.Coords) (a1 : Memref sig .tc .vmem S8x8x128 .f32) (h1 : a1.IsWhole) (a2 : Memref sig .tc .vmem S8x128 .f32) (h2 : a2.IsWhole) (a3 : Memref sig .tc .vmem S8x8x2048 .f32) (h3 : a3.IsWhole) (a4 : Memref sig .tc .vmem S8x2048 .f32) (h4 : a4.IsWhole) (a5 : Memref sig .tc .vmem S8 .f32) (h5 : a5.IsWhole) (a6 : Memref sig .tc .vmem S8x2048 .f32) (h6 : a6.IsWhole) (a7 : Memref sig .tc .vmem S8x1 .f32) (h7 : a7.IsWhole) (hc0 : ¬cond0_0 i) (hc1 : ¬cond0_1 i) (x0 : Vec F S8x8x128 .f32) (x1 : Vec F S8x128 .f32) (x2 : Vec F S8x8x2048 .f32) (x3 : Vec F S8x2048 .f32) (xs0 : Vec F S8x2048 .f32) (xs1 : Vec F S8x1 .f32) :
    sout0_B_0 c i a1 h1 a2 h2 a3 h3 a4 h4 a5 h5 a6 h6 a7 h7 hc0 hc1 x0 x1 x2 x3 xs0 xs1 = k0_pay6 x0 x2 x1 x3 xs0 := by
  unfold sout0_B_0
  rw [View.read_writes_eq_canon _ _ _ (scover0_B_0 c i a1 h1 a2 h2 a3 h3 a4 h4 a5 h5 a6 h6 a7 h7 hc0 hc1 x0 x1 x2 x3 xs0 xs1)]
  unfold kernelRun0_B
  dsimp only
  sl_unfold_words
  rw [View.canon_unit_zero hz2]
  simp only [View.readAt_eq_ld, h1.read_unread, h2.read_unread, h3.read_unread, h4.read_unread, h6.read_unread, h7.read_unread, View.ld_unit_zero (S := S8x8x128) hz3, View.ld_unit_zero (S := S8x128) hz2, View.ld_unit_zero (S := S8x8x2048) hz3, View.ld_unit_zero (S := S8x2048) hz2, View.ld_unit_zero (S := S8x1) hz2]

/-- A middle point leaves in the row-minimum sum its update of what the point before left. -/
theorem rowsum_B (c : Dev nD) (i : grid0.Coords) (a1 : Memref sig .tc .vmem S8x8x128 .f32) (h1 : a1.IsWhole) (a2 : Memref sig .tc .vmem S8x128 .f32) (h2 : a2.IsWhole) (a3 : Memref sig .tc .vmem S8x8x2048 .f32) (h3 : a3.IsWhole) (a4 : Memref sig .tc .vmem S8x2048 .f32) (h4 : a4.IsWhole) (a5 : Memref sig .tc .vmem S8 .f32) (h5 : a5.IsWhole) (a6 : Memref sig .tc .vmem S8x2048 .f32) (h6 : a6.IsWhole) (a7 : Memref sig .tc .vmem S8x1 .f32) (h7 : a7.IsWhole) (hc0 : ¬cond0_0 i) (hc1 : ¬cond0_1 i) (x0 : Vec F S8x8x128 .f32) (x1 : Vec F S8x128 .f32) (x2 : Vec F S8x8x2048 .f32) (x3 : Vec F S8x2048 .f32) (xs0 : Vec F S8x2048 .f32) (xs1 : Vec F S8x1 .f32) :
    sout0_B_1 c i a1 h1 a2 h2 a3 h3 a4 h4 a5 h5 a6 h6 a7 h7 hc0 hc1 x0 x1 x2 x3 xs0 xs1 = k0_pay5 x0 x2 x1 x3 xs1 := by
  unfold sout0_B_1
  rw [View.read_writes_eq_canon _ _ _ (scover0_B_1 c i a1 h1 a2 h2 a3 h3 a4 h4 a5 h5 a6 h6 a7 h7 hc0 hc1 x0 x1 x2 x3 xs0 xs1)]
  unfold kernelRun0_B
  dsimp only
  sl_unfold_words
  rw [View.canon_unit_zero hz2]
  simp only [View.readAt_eq_ld, h1.read_unread, h2.read_unread, h3.read_unread, h4.read_unread, h6.read_unread, h7.read_unread, View.ld_unit_zero (S := S8x8x128) hz3, View.ld_unit_zero (S := S8x128) hz2, View.ld_unit_zero (S := S8x8x2048) hz3, View.ld_unit_zero (S := S8x2048) hz2, View.ld_unit_zero (S := S8x1) hz2]

/-- The last point updates the column-minimum buffer as a middle point does. -/
theorem colmin_C (c : Dev nD) (i : grid0.Coords) (a1 : Memref sig .tc .vmem S8x8x128 .f32) (h1 : a1.IsWhole) (a2 : Memref sig .tc .vmem S8x128 .f32) (h2 : a2.IsWhole) (a3 : Memref sig .tc .vmem S8x8x2048 .f32) (h3 : a3.IsWhole) (a4 : Memref sig .tc .vmem S8x2048 .f32) (h4 : a4.IsWhole) (a5 : Memref sig .tc .vmem S8 .f32) (h5 : a5.IsWhole) (a6 : Memref sig .tc .vmem S8x2048 .f32) (h6 : a6.IsWhole) (a7 : Memref sig .tc .vmem S8x1 .f32) (h7 : a7.IsWhole) (hc0 : ¬cond0_0 i) (hc1 : cond0_1 i) (x0 : Vec F S8x8x128 .f32) (x1 : Vec F S8x128 .f32) (x2 : Vec F S8x8x2048 .f32) (x3 : Vec F S8x2048 .f32) (xs0 : Vec F S8x2048 .f32) (xs1 : Vec F S8x1 .f32) :
    sout0_C_0 c i a1 h1 a2 h2 a3 h3 a4 h4 a5 h5 a6 h6 a7 h7 hc0 hc1 x0 x1 x2 x3 xs0 xs1 = k0_pay6 x0 x2 x1 x3 xs0 := by
  unfold sout0_C_0
  rw [View.read_writes_eq_canon _ _ _ (scover0_C_0 c i a1 h1 a2 h2 a3 h3 a4 h4 a5 h5 a6 h6 a7 h7 hc0 hc1 x0 x1 x2 x3 xs0 xs1)]
  unfold kernelRun0_C
  dsimp only
  sl_unfold_words
  rw [View.canon_unit_zero hz2]
  simp only [View.readAt_eq_ld, h1.read_unread, h2.read_unread, h3.read_unread, h4.read_unread, h6.read_unread, h7.read_unread, View.ld_unit_zero (S := S8x8x128) hz3, View.ld_unit_zero (S := S8x128) hz2, View.ld_unit_zero (S := S8x8x2048) hz3, View.ld_unit_zero (S := S8x2048) hz2, View.ld_unit_zero (S := S8x1) hz2]

/-- The last point updates the row-minimum sum as a middle point does. -/
theorem rowsum_C (c : Dev nD) (i : grid0.Coords) (a1 : Memref sig .tc .vmem S8x8x128 .f32) (h1 : a1.IsWhole) (a2 : Memref sig .tc .vmem S8x128 .f32) (h2 : a2.IsWhole) (a3 : Memref sig .tc .vmem S8x8x2048 .f32) (h3 : a3.IsWhole) (a4 : Memref sig .tc .vmem S8x2048 .f32) (h4 : a4.IsWhole) (a5 : Memref sig .tc .vmem S8 .f32) (h5 : a5.IsWhole) (a6 : Memref sig .tc .vmem S8x2048 .f32) (h6 : a6.IsWhole) (a7 : Memref sig .tc .vmem S8x1 .f32) (h7 : a7.IsWhole) (hc0 : ¬cond0_0 i) (hc1 : cond0_1 i) (x0 : Vec F S8x8x128 .f32) (x1 : Vec F S8x128 .f32) (x2 : Vec F S8x8x2048 .f32) (x3 : Vec F S8x2048 .f32) (xs0 : Vec F S8x2048 .f32) (xs1 : Vec F S8x1 .f32) :
    sout0_C_1 c i a1 h1 a2 h2 a3 h3 a4 h4 a5 h5 a6 h6 a7 h7 hc0 hc1 x0 x1 x2 x3 xs0 xs1 = k0_pay5 x0 x2 x1 x3 xs1 := by
  unfold sout0_C_1
  rw [View.read_writes_eq_canon _ _ _ (scover0_C_1 c i a1 h1 a2 h2 a3 h3 a4 h4 a5 h5 a6 h6 a7 h7 hc0 hc1 x0 x1 x2 x3 xs0 xs1)]
  unfold kernelRun0_C
  dsimp only
  sl_unfold_words
  rw [View.canon_unit_zero hz2]
  simp only [View.readAt_eq_ld, h1.read_unread, h2.read_unread, h3.read_unread, h4.read_unread, h6.read_unread, h7.read_unread, View.ld_unit_zero (S := S8x8x128) hz3, View.ld_unit_zero (S := S8x128) hz2, View.ld_unit_zero (S := S8x8x2048) hz3, View.ld_unit_zero (S := S8x2048) hz2, View.ld_unit_zero (S := S8x1) hz2]

/-- The last point then writes the result: the total of the two buffers as it has just left them. -/
theorem result_C (c : Dev nD) (i : grid0.Coords) (a1 : Memref sig .tc .vmem S8x8x128 .f32) (h1 : a1.IsWhole) (a2 : Memref sig .tc .vmem S8x128 .f32) (h2 : a2.IsWhole) (a3 : Memref sig .tc .vmem S8x8x2048 .f32) (h3 : a3.IsWhole) (a4 : Memref sig .tc .vmem S8x2048 .f32) (h4 : a4.IsWhole) (a5 : Memref sig .tc .vmem S8 .f32) (h5 : a5.IsWhole) (a6 : Memref sig .tc .vmem S8x2048 .f32) (h6 : a6.IsWhole) (a7 : Memref sig .tc .vmem S8x1 .f32) (h7 : a7.IsWhole) (hc0 : ¬cond0_0 i) (hc1 : cond0_1 i) (x0 : Vec F S8x8x128 .f32) (x1 : Vec F S8x128 .f32) (x2 : Vec F S8x8x2048 .f32) (x3 : Vec F S8x2048 .f32) (xs0 : Vec F S8x2048 .f32) (xs1 : Vec F S8x1 .f32) :
    out0_C_4 c i a1 h1 a2 h2 a3 h3 a4 h4 a5 h5 a6 h6 a7 h7 hc0 hc1 x0 x1 x2 x3 xs0 xs1 = k0_pay1 (k0_pay6 x0 x2 x1 x3 xs0) (k0_pay5 x0 x2 x1 x3 xs1) := by
  unfold out0_C_4
  rw [View.read_writes_eq_canon _ _ _ (cover0_C_4 c i a1 h1 a2 h2 a3 h3 a4 h4 a5 h5 a6 h6 a7 h7 hc0 hc1 x0 x1 x2 x3 xs0 xs1)]
  unfold kernelRun0_C
  dsimp only
  sl_unfold_words
  rw [View.canon_unit_zero hz1, View.readCov_unit_zero (S := S8x2048) _ hz2, View.readCov_unit_zero (S := S8x1) _ hz2]
  simp only [View.readAt_eq_ld, h1.read_unread, h2.read_unread, h3.read_unread, h4.read_unread, h6.read_unread, h7.read_unread, View.ld_unit_zero (S := S8x8x128) hz3, View.ld_unit_zero (S := S8x128) hz2, View.ld_unit_zero (S := S8x8x2048) hz3, View.ld_unit_zero (S := S8x2048) hz2, View.ld_unit_zero (S := S8x1) hz2]

/-- The first point resets the column-minimum buffer to the +inf block, reads it back, and updates it. -/
theorem colmin_A (c : Dev nD) (i : grid0.Coords) (a1 : Memref sig .tc .vmem S8x8x128 .f32) (h1 : a1.IsWhole) (a2 : Memref sig .tc .vmem S8x128 .f32) (h2 : a2.IsWhole) (a3 : Memref sig .tc .vmem S8x8x2048 .f32) (h3 : a3.IsWhole) (a4 : Memref sig .tc .vmem S8x2048 .f32) (h4 : a4.IsWhole) (a5 : Memref sig .tc .vmem S8 .f32) (h5 : a5.IsWhole) (a6 : Memref sig .tc .vmem S8x2048 .f32) (h6 : a6.IsWhole) (a7 : Memref sig .tc .vmem S8x1 .f32) (h7 : a7.IsWhole) (hc0 : cond0_0 i) (hc1 : ¬cond0_1 i) (x0 : Vec F S8x8x128 .f32) (x1 : Vec F S8x128 .f32) (x2 : Vec F S8x8x2048 .f32) (x3 : Vec F S8x2048 .f32) :
    sout0_A_0 c i a1 h1 a2 h2 a3 h3 a4 h4 a5 h5 a6 h6 a7 h7 hc0 hc1 x0 x1 x2 x3 = k0_pay6 x0 x2 x1 x3 (k0_pay2 (F := F)) := by
  unfold sout0_A_0
  rw [View.read_writes_eq_canon _ _ _ (scover0_A_0 c i a1 h1 a2 h2 a3 h3 a4 h4 a5 h5 a6 h6 a7 h7 hc0 hc1 x0 x1 x2 x3)]
  unfold kernelRun0_A
  dsimp only
  sl_unfold_words
  rw [View.canon_cons_unit_zero (S := S8x2048) hz2, View.readCov_unit_zero (S := S8x2048) _ hz2]
  simp only [View.readAt_eq_ld, h1.read_unread, h2.read_unread, h3.read_unread, h4.read_unread, h6.read_unread, h7.read_unread, View.ld_unit_zero (S := S8x8x128) hz3, View.ld_unit_zero (S := S8x128) hz2, View.ld_unit_zero (S := S8x8x2048) hz3, View.ld_unit_zero (S := S8x2048) hz2, View.ld_unit_zero (S := S8x1) hz2]

/-- The first point resets the row-minimum sum to the zero block, reads it back, and updates it. -/
theorem rowsum_A (c : Dev nD) (i : grid0.Coords) (a1 : Memref sig .tc .vmem S8x8x128 .f32) (h1 : a1.IsWhole) (a2 : Memref sig .tc .vmem S8x128 .f32) (h2 : a2.IsWhole) (a3 : Memref sig .tc .vmem S8x8x2048 .f32) (h3 : a3.IsWhole) (a4 : Memref sig .tc .vmem S8x2048 .f32) (h4 : a4.IsWhole) (a5 : Memref sig .tc .vmem S8 .f32) (h5 : a5.IsWhole) (a6 : Memref sig .tc .vmem S8x2048 .f32) (h6 : a6.IsWhole) (a7 : Memref sig .tc .vmem S8x1 .f32) (h7 : a7.IsWhole) (hc0 : cond0_0 i) (hc1 : ¬cond0_1 i) (x0 : Vec F S8x8x128 .f32) (x1 : Vec F S8x128 .f32) (x2 : Vec F S8x8x2048 .f32) (x3 : Vec F S8x2048 .f32) :
    sout0_A_1 c i a1 h1 a2 h2 a3 h3 a4 h4 a5 h5 a6 h6 a7 h7 hc0 hc1 x0 x1 x2 x3 = k0_pay5 x0 x2 x1 x3 (k0_pay3 (F := F)) := by
  unfold sout0_A_1
  rw [View.read_writes_eq_canon _ _ _ (scover0_A_1 c i a1 h1 a2 h2 a3 h3 a4 h4 a5 h5 a6 h6 a7 h7 hc0 hc1 x0 x1 x2 x3)]
  unfold kernelRun0_A
  dsimp only
  sl_unfold_words
  rw [View.canon_cons_unit_zero (S := S8x1) hz2, View.readCov_unit_zero (S := S8x1) _ hz2]
  simp only [View.readAt_eq_ld, h1.read_unread, h2.read_unread, h3.read_unread, h4.read_unread, h6.read_unread, h7.read_unread, View.ld_unit_zero (S := S8x8x128) hz3, View.ld_unit_zero (S := S8x128) hz2, View.ld_unit_zero (S := S8x8x2048) hz3, View.ld_unit_zero (S := S8x2048) hz2, View.ld_unit_zero (S := S8x1) hz2]

end Cert.KernelIdeal.Pieces

end
-- ==== Proof.LibMinOn.lean ====
/-
  GREATEST LOWER BOUNDS OF FINITE FAMILIES OF EXTENDED REALS, FOR MINIMUM REDUCTIONS.
  A value claim at the ideal float values that meets minima - a kernel's vector.multi_reduction <minimumf>, a host
  reduce by minimum, minima accumulated across grid points, minima of partial minima - is easiest carried by the
  UNIVERSAL PROPERTY of the minimum instead of any fold order: IsMinOn p f x says c ≤ x iff c ≤ f k for every index k
  with p k. This file has the predicate and its laws (uniqueness, lower bound, change of index set or values, the empty
  family, the minimum of two bounds bounds the union, a fold of min from the top element, minima of minima, transport
  along a map of indices); the reading of a one-axis minimum reduction from the top element, in a kernel
  (multiReduction_minimumf_isMinOn) and on the host (hostReduce_minimumf_isMinOn), as the greatest lower bound over the
  reduced axis; the monotonicity of the ideal square root (sqrt_mono); and the exchange of the square root after a clamp
  at zero with the minimum of finitely many non-negative values (sqrt_max_isMinOn): sqrt (max (min_k f k) 0) is the
  minimum of the sqrt (f k), which is what lets a kernel defer clamp and square root past its min-reductions.
-/
import Idealize.ShloMosaic.PureOps.Ideal
import Idealize.ShloMosaic.PureOps.Ideal.Laws
import Idealize.ShloMosaic.PureOps.Reduce

noncomputable section

namespace Cert.Lib.MinOn

open Idealize.ShloMosaic

/-- x is the greatest lower bound of the values f k over the indices k with p k: the minimum of a finite family
    (or the top element of an empty one), stated without naming the order a reduction folds in. -/
def IsMinOn {ι : Type} (p : ι → Prop) (f : ι → EReal) (x : EReal) : Prop :=
  ∀ c : EReal, c ≤ x ↔ ∀ k, p k → c ≤ f k

namespace IsMinOn

variable {ι : Type} {p q : ι → Prop} {f g : ι → EReal} {x y : EReal}

/-- A greatest lower bound is unique. -/
theorem unique (hx : IsMinOn p f x) (hy : IsMinOn p f y) : x = y :=
  eq_of_forall_le_iff fun c => (hx c).trans (hy c).symm

/-- It is a lower bound. -/
theorem le (hx : IsMinOn p f x) {k : ι} (hk : p k) : x ≤ f k := (hx x).mp le_rfl k hk

/-- The same set of indices, the same values on it. -/
theorem congr (hx : IsMinOn p f x) (hp : ∀ k, p k ↔ q k) (hf : ∀ k, p k → f k = g k) : IsMinOn q g x := fun c =>
  (hx c).trans ⟨fun h k hk => hf k ((hp k).mpr hk) ▸ h k ((hp k).mpr hk), fun h k hk => (hf k hk).symm ▸ h k ((hp k).mp hk)⟩

/-- Nothing to bound: the top element. -/
theorem empty (hp : ∀ k, ¬p k) : IsMinOn p f ⊤ := fun _ => ⟨fun _ k hk => absurd hk (hp k), fun _ => le_top⟩

/-- The minimum of two greatest lower bounds bounds the union. -/
theorem min (hx : IsMinOn p f x) (hy : IsMinOn q f y) : IsMinOn (fun k => p k ∨ q k) f (Min.min x y) := fun c => by
  rw [le_min_iff, hx c, hy c]
  exact ⟨fun h k hk => hk.elim (h.1 k) (h.2 k), fun h => ⟨fun k hk => h k (.inl hk), fun k hk => h k (.inr hk)⟩⟩

/-- A fold of min from the top element over a finite set. -/
theorem fold (S : Finset ι) (f : ι → EReal) : IsMinOn (fun k => k ∈ S) f (S.fold Min.min ⊤ f) := fun c => by
  rw [Finset.le_fold_min]; exact ⟨fun h => h.2, fun h => ⟨le_top, h⟩⟩

/-- Minima of minima: if each g a is the greatest lower bound of f over r a, the greatest lower bound of g over q
    is that of f over the union of the r a, q a. -/
theorem iUnion {κ : Type} {q : κ → Prop} {r : κ → ι → Prop} {g : κ → EReal} (hg : ∀ a, q a → IsMinOn (r a) f (g a))
    (hx : IsMinOn q g x) : IsMinOn (fun k => ∃ a, q a ∧ r a k) f x := fun c => by
  rw [hx c]
  exact ⟨fun h k ⟨a, ha, hk⟩ => ((hg a ha) c).mp (h a ha) k hk, fun h a ha => ((hg a ha) c).mpr fun k hk => h k ⟨a, ha, hk⟩⟩

/-- Along a map of index sets: the greatest lower bound of f after e over q is that of f over the image. -/
theorem map {κ : Type} {q : κ → Prop} (e : κ → ι) (hx : IsMinOn q (fun j => f (e j)) x) :
    IsMinOn (fun k => ∃ j, q j ∧ e j = k) f x := fun c => by
  rw [hx c]
  exact ⟨fun h k ⟨j, hj, hk⟩ => hk ▸ h j hj, fun h j hj => h (e j) ⟨j, hj, rfl⟩⟩

end IsMinOn

/-- A kernel's minimum reduction over ONE axis, from an accumulator word that denotes the top element, read at a result
    index j: the greatest lower bound of the source over the reduced axis's coordinates (the source index is j with
    the coordinate inserted). -/
theorem multiReduction_minimumf_isMinOn {φ : FTy} {s t : Shape} {a : Fin s.rank} (src : FVec Ideal s φ) (acc : BitVec φ.bits)
    (h : s.Reduces [a] t) (hφ : FKind.Formats φ) (hacc : acc = FKind.minimumf.neutral φ hφ)
    (htop : Ideal.ofBits φ acc = (⊤ : EReal)) (j : t.Idx) :
    IsMinOn (fun _ : Fin (s.size a) => True) (fun k => src (h.lift j k))
      (multiReduction .minimumf [a] t src acc h hφ hacc j) := by
  have e : multiReduction .minimumf [a] t src acc h hφ hacc j
      = (Finset.univ : Finset (Fin (s.size a))).fold min (⊤ : EReal) (fun k => src (h.lift j k)) := by
    refine (multiReduction_minimumf_eq_fold src acc h hφ hacc j).trans ?_
    refine (h.fold_filter_drop_single _ _ src j).trans ?_
    exact congrArg (fun z : EReal => (Finset.univ : Finset (Fin (s.size a))).fold min z (fun k => src (h.lift j k))) htop
  rw [e]
  exact (IsMinOn.fold Finset.univ _).congr (fun _ => ⟨fun _ => trivial, fun _ => Finset.mem_univ _⟩) (fun _ _ => rfl)

/-- The host's reduce by minimum over ONE axis, from an initial value that is the top element, read at a result index
    j: the same greatest lower bound (h' is the reduce's own shape fact, h the witness at the same shapes that names
    the inserted index). -/
theorem hostReduce_minimumf_isMinOn {φ : FTy} {s t u : Shape} {a : Fin s.rank} (x : FVec Ideal s φ) (init : FVec Ideal u φ)
    (h' : s.ReducesTo [a] t) (h : s.Reduces [a] t) (hu : 0 < u.numel)
    (htop : init (Shape.Idx.first hu) = (⊤ : EReal)) (j : t.Idx) :
    IsMinOn (fun _ : Fin (s.size a) => True) (fun k => x (h.lift j k))
      (Host.reduce (FloatOps.minimumf (F := Ideal) (φ := φ)) x init h' hu j) := by
  have e : Host.reduce (FloatOps.minimumf (F := Ideal) (φ := φ)) x init h' hu j
      = (Finset.univ : Finset (Fin (s.size a))).fold min (⊤ : EReal) (fun k => x (h.lift j k)) := by
    refine (Host.reduce_eq_fold_single (FloatOps.minimumf (F := Ideal) (φ := φ)) x init h' h hu j).trans ?_
    exact congrArg (fun z : EReal => (Finset.univ : Finset (Fin (s.size a))).fold min z (fun k => x (h.lift j k))) htop
  rw [e]
  exact (IsMinOn.fold Finset.univ _).congr (fun _ => ⟨fun _ => trivial, fun _ => Finset.mem_univ _⟩) (fun _ _ => rfl)

/-- The square root of the extended reals is monotone: bottom below everything, top above everything, and on
    the reals either the left argument is negative (value bottom) or both are non-negative and the real square
    root is monotone. -/
theorem sqrt_mono : Monotone Ideal.sqrt := by
  intro a b hab
  induction a using EReal.rec with
  | bot => simp
  | top =>
    have hb : b = ⊤ := top_le_iff.mp hab
    subst hb; exact le_rfl
  | coe r =>
    induction b using EReal.rec with
    | bot => simp at hab
    | top => simp
    | coe s =>
      have hrs : r ≤ s := EReal.coe_le_coe_iff.mp hab
      simp only [Ideal.sqrt_coe]
      split_ifs with h1 h2 h2
      · exact le_rfl
      · exact bot_le
      · exact absurd (lt_of_le_of_lt hrs h2) h1
      · exact EReal.coe_le_coe_iff.mpr (Real.sqrt_le_sqrt hrs)

/-- The square root, after a clamp at zero, of the minimum of finitely many values that are all non-negative is
    the minimum of their square roots: the minimum of a non-empty finite family is attained, at a non-negative
    value where the clamp is the identity; an empty family has minimum top on both sides. -/
theorem sqrt_max_isMinOn {ι : Type} [Finite ι] (f g : ι → EReal) (hfg : ∀ k, f k = g k) (hg : ∀ k, 0 ≤ g k)
    {x y : EReal} (hx : IsMinOn (fun _ => True) f x)
    (hy : IsMinOn (fun _ => True) (fun k => Ideal.sqrt (g k)) y) : Ideal.sqrt (max x 0) = y := by
  refine IsMinOn.unique (p := fun _ => True) (f := fun k => Ideal.sqrt (g k)) ?_ hy
  intro c
  constructor
  · intro hc k _
    have h1 : x ≤ g k := hfg k ▸ hx.le (k := k) trivial
    exact hc.trans (sqrt_mono (max_le h1 (hg k)))
  · intro hc
    rcases isEmpty_or_nonempty ι with he | hne
    · have hxt : x = ⊤ := hx.unique (IsMinOn.empty fun k => (he.false k).elim)
      subst hxt
      simp
    · obtain ⟨k0, hk0⟩ : ∃ k0, x = f k0 := by
        cases nonempty_fintype ι
        have hx' : x = Finset.univ.inf' Finset.univ_nonempty f :=
          eq_of_forall_le_iff fun c => by
            rw [hx c, Finset.le_inf'_iff]; simp
        obtain ⟨k0, _, hk0⟩ := Finset.exists_mem_eq_inf' Finset.univ_nonempty f
        exact ⟨k0, hx'.trans hk0⟩
      have hx0 : max x 0 = g k0 := by rw [hk0, hfg]; exact max_eq_left (hg k0)
      rw [hx0]; exact hc k0 trivial

end Cert.Lib.MinOn

end
-- ==== Proof.ChamferSpec.lean ====
/-
  THE CHAMFER DIVERGENCE BETWEEN TWO FAMILIES OF DIAGONAL GAUSSIANS, AS MATHEMATICS.

  For a batch b, a "predicted" Gaussian i (mean x0[b,i,·], log-variance x1[b,i,·]) and a "target" Gaussian j
  (mean x2[b,j,·], log-variance x3[b,j,·]) in dimension 4, the Kullback-Leibler divergence KL(i ‖ j) is
      -1/2 · ( 4 + Σ_d la − Σ_d lb − Σ_d exp(la)·exp(−lb) − Σ_d (μa − μb)² · exp(−lb) ),
  and the chamfer loss of batch b is   Σ_j min_i KL(i ‖ j)  +  Σ_i min_j KL(i ‖ j).

  This module states that, with no program in sight:
   * `pair`: the divergence with the square expanded into three sums, each a contraction over d (`pair`);
   * `pairFused`: the same number from ONE contraction of width 8 of two augmented feature arrays, plus one bias per
     predicted Gaussian and one per target Gaussian;
   * `IsChamfer P out`: out b is the sum of the column minima of P b plus the sum of its row minima, the minima
     carried by their universal property (greatest lower bound), so that no order of folding is named; such an
     `out` is unique (`IsChamfer.unique`);
   * the two ACCUMULATION steps of a computation that sees the predicted Gaussians 128 at a time: the running
     column minimum after one more tile is the minimum over all rows seen (`colmin_step`), and the running sum of row
     minima after one more tile is the sum over all rows seen (`rowsum_step`), both for any number of tiles;
   * the float literals that occur, as the reals they denote (`negHalf_eq`, …).
-/
import Idealize.ShloMosaic.PureOps.Ideal
import Idealize.ShloMosaic.PureOps.Ideal.Laws
import Idealize.ShloMosaic.Lib.ValueIdx
import proofs.«153607_j72688026517737_2_alg».proof.Proof.LibMinOn
import Mathlib.Algebra.BigOperators.Fin
import Mathlib.Algebra.BigOperators.Intervals

noncomputable section

namespace Cert.Chamfer

open Idealize.ShloMosaic Idealize.ShloMosaic.ValueIdx Cert.Lib.MinOn
open scoped BigOperators

/-! ## The float literals -/

/-- `-0.5`, `0.5`, `4.0`, `2.0`, `0.0` and `+inf` as the programs spell them. -/
abbrev negHalf : EReal := Ideal.ofBits .f32 0xBF000000#32
abbrev half : EReal := Ideal.ofBits .f32 0x3F000000#32
abbrev four : EReal := Ideal.ofBits .f32 0x40800000#32
abbrev two : EReal := Ideal.ofBits .f32 0x40000000#32
abbrev zero : EReal := Ideal.ofBits .f32 0x00000000#32
abbrev posInf : EReal := Ideal.ofBits .f32 0x7F800000#32

theorem negHalf_eq : negHalf = ((-(1 / 2) : ℝ) : EReal) := by
  simp [Ideal.ofBits, Ideal.ieee, -EReal.coe_mul, -EReal.coe_neg]; norm_num
theorem half_eq : half = ((1 / 2 : ℝ) : EReal) := by
  simp [Ideal.ofBits, Ideal.ieee, -EReal.coe_mul]; norm_num
theorem four_eq : four = ((4 : ℝ) : EReal) := by
  simp [Ideal.ofBits, Ideal.ieee, -EReal.coe_mul]; norm_num
theorem two_eq : two = ((2 : ℝ) : EReal) := by
  simp [Ideal.ofBits, Ideal.ieee, -EReal.coe_mul]; norm_num
theorem zero_eq : zero = 0 := Ideal.ofBits_zero_f32
theorem posInf_eq : posInf = ⊤ := by
  simp [Ideal.ofBits, Ideal.ieee]

/-! ## The pairwise divergence, in two arrangements -/

/-- One of the four arguments: an [8, 2048, 4] array of extended reals. -/
abbrev Arr : Type := (⟨3, ![8, 2048, 4]⟩ : Shape).Idx → EReal

/-- KL(i ‖ j) in batch b with the square expanded: three contractions over the dimension d, the target's own
    quadratic term, and the two log-determinants. -/
def pair (x0 x1 x2 x3 : Arr) (b : Fin 8) (i j : Fin 2048) : EReal :=
  negHalf *
    ((((four + (zero + ∑ d : Fin 4, x1 (ix3 b i d))) - (zero + ∑ d : Fin 4, x3 (ix3 b j d)))
        - ∑ d : Fin 4, Ideal.exp (x1 (ix3 b i d)) * Ideal.exp (-(x3 (ix3 b j d))))
      - (((∑ d : Fin 4, (x0 (ix3 b i d) * x0 (ix3 b i d)) * Ideal.exp (-(x3 (ix3 b j d))))
            - two * ∑ d : Fin 4, x0 (ix3 b i d) * (x2 (ix3 b j d) * Ideal.exp (-(x3 (ix3 b j d)))))
          + (zero + ∑ d : Fin 4, (x2 (ix3 b j d) * x2 (ix3 b j d)) * Ideal.exp (-(x3 (ix3 b j d))))))

/-- The same quantity as ONE contraction of width 8 of a left array L[b, k, i] and a right array R[b, k, j], plus a
    bias A[b, i] of the predicted Gaussian and a bias B[b, j] of the target. -/
def pairFused (L R : (⟨3, ![8, 8, 2048]⟩ : Shape).Idx → EReal) (A B : (⟨2, ![8, 2048]⟩ : Shape).Idx → EReal)
    (b : Fin 8) (i j : Fin 2048) : EReal :=
  ((∑ k : Fin 8, L (ix3 b k i) * R (ix3 b k j)) + A (ix2 b i)) + B (ix2 b j)

/-! ## The loss: column minima summed, plus row minima summed -/

/-- `out b` is the sum over j of the minimum over i of `P b i j`, plus the sum over i of the minimum over j. -/
def IsChamfer (P : Fin 8 → Fin 2048 → Fin 2048 → EReal) (out : Fin 8 → EReal) : Prop :=
  ∃ cmin rmin : Fin 8 → Fin 2048 → EReal,
    (∀ b j, IsMinOn (fun _ : Fin 2048 => True) (fun i => P b i j) (cmin b j)) ∧
    (∀ b i, IsMinOn (fun _ : Fin 2048 => True) (fun j => P b i j) (rmin b i)) ∧
    ∀ b, out b = (∑ j : Fin 2048, cmin b j) + ∑ i : Fin 2048, rmin b i

/-- The loss is a function of the pairwise table. -/
theorem IsChamfer.unique {P : Fin 8 → Fin 2048 → Fin 2048 → EReal} {out out' : Fin 8 → EReal}
    (h : IsChamfer P out) (h' : IsChamfer P out') : out = out' := by
  obtain ⟨c, r, hc, hr, ho⟩ := h
  obtain ⟨c', r', hc', hr', ho'⟩ := h'
  funext b
  rw [ho b, ho' b]
  have e1 : ∀ j, c b j = c' b j := fun j => (hc b j).unique (hc' b j)
  have e2 : ∀ i, r b i = r' b i := fun i => (hr b i).unique (hr' b i)
  simp only [e1, e2]

/-- Two tables equal entry by entry have the same loss. -/
theorem IsChamfer.congr {P P' : Fin 8 → Fin 2048 → Fin 2048 → EReal} {out : Fin 8 → EReal}
    (hP : ∀ b i j, P b i j = P' b i j) (h : IsChamfer P out) : IsChamfer P' out := by
  have e : P = P' := funext fun b => funext fun i => funext fun j => hP b i j
  exact e ▸ h

/-! ## Seeing the rows 128 at a time -/

/-- The running column minimum. If `acc` is the minimum of `f` over the rows below `128 · n` and `tile` the minimum
    over the next 128 rows (row `e r` is row `128 · n + r`), then `min acc tile` is the minimum over the rows below
    `128 · (n + 1)`. -/
theorem colmin_step (f : Fin 2048 → EReal) (n : ℕ) (e : Fin 128 → Fin 2048) (he : ∀ r, (e r).val = 128 * n + r.val)
    {acc tile : EReal} (hacc : IsMinOn (fun i : Fin 2048 => i.val < 128 * n) f acc)
    (htile : IsMinOn (fun _ : Fin 128 => True) (fun r => f (e r)) tile) :
    IsMinOn (fun i : Fin 2048 => i.val < 128 * (n + 1)) f (min acc tile) := by
  have h2 := (IsMinOn.map (f := f) e htile)
  refine (hacc.min h2).congr (fun i => ?_) (fun _ _ => rfl)
  constructor
  · rintro (h | ⟨r, -, hr⟩)
    · omega
    · have := he r; have := r.isLt; rw [← hr]; omega
  · intro h
    by_cases hlt : i.val < 128 * n
    · exact .inl hlt
    · refine .inr ⟨⟨i.val - 128 * n, by omega⟩, trivial, Fin.ext ?_⟩
      rw [he]; simp only; omega

/-- Before any row is seen the running column minimum is the top element. -/
theorem colmin_zero (f : Fin 2048 → EReal) : IsMinOn (fun i : Fin 2048 => i.val < 128 * 0) f ⊤ :=
  IsMinOn.empty fun i h => by omega

/-- After all sixteen tiles every row has been seen. -/
theorem colmin_all (f : Fin 2048 → EReal) {x : EReal} (h : IsMinOn (fun i : Fin 2048 => i.val < 128 * 16) f x) :
    IsMinOn (fun _ : Fin 2048 => True) f x :=
  h.congr (fun i => ⟨fun _ => trivial, fun _ => by have := i.isLt; omega⟩) (fun _ _ => rfl)

/-- A sequence indexed by the rows, continued by zero past the last row. -/
def ext (g : Fin 2048 → EReal) (k : ℕ) : EReal := if h : k < 2048 then g ⟨k, h⟩ else 0

/-- The sum of `g` over the rows below `128 · n`. -/
def rowsum (g : Fin 2048 → EReal) (n : ℕ) : EReal := ∑ k ∈ Finset.range (128 * n), ext g k

theorem rowsum_zero (g : Fin 2048 → EReal) : rowsum g 0 = 0 := by
  simp [rowsum]

/-- The running sum of row values: one more tile adds its 128 values. -/
theorem rowsum_step (g : Fin 2048 → EReal) (n : ℕ) (e : Fin 128 → Fin 2048) (he : ∀ r, (e r).val = 128 * n + r.val) :
    rowsum g (n + 1) = rowsum g n + ∑ r : Fin 128, g (e r) := by
  unfold rowsum
  rw [show 128 * (n + 1) = 128 * n + 128 by ring, Finset.sum_range_add]
  refine congrArg (_ + ·) ?_
  rw [Finset.sum_range]
  refine Finset.sum_congr rfl fun r _ => ?_
  have hlt : 128 * n + r.val < 2048 := by rw [← he r]; exact (e r).isLt
  unfold ext
  rw [dif_pos hlt]
  exact congrArg g (Fin.ext (he r).symm)

/-- After all sixteen tiles the running sum is the sum over every row. -/
theorem rowsum_all (g : Fin 2048 → EReal) : rowsum g 16 = ∑ i : Fin 2048, g i := by
  unfold rowsum
  rw [show 128 * 16 = 2048 by norm_num, Finset.sum_range]
  refine Finset.sum_congr rfl fun i _ => ?_
  unfold ext
  rw [dif_pos i.isLt]

end Cert.Chamfer

end
-- ==== Proof.KernelPayload.lean ====
/-
  THE BODY'S ARITHMETIC, READ ONE ELEMENT AT A TIME, AT THE IDEAL VALUES.

  With L the tile's left features [8, 8, 128], R the right features [8, 8, 2048], A the tile's biases [8, 128] and
  B the target biases [8, 2048]:
   * the tile of divergences at (b, r, j) is  Σ_k L[b,k,r] · R[b,k,j] + A[b,r] + B[b,j]   (`tile_apply`: a batched
     contraction over the middle axis into a zero accumulator, then two broadcast additions, one along the targets and
     one along the tile's rows);
   * the column-minimum update at (b, j) is the minimum of what the buffer held and of the tile's column minimum, which
     is the greatest lower bound of the tile's column (`colmin_update_apply`);
   * the row-minimum-sum update at b adds to what the buffer held the sum, over the tile's 128 rows, of each row's
     minimum over all 2048 targets (`rowsum_update_apply`);
   * the result at b is the sum of the 2048 column minima plus the row-minimum sum (`total_apply`);
   * the two reset blocks read +inf and 0 everywhere.
  Minima are carried by their universal property, sums are plain finite sums of extended reals.
-/
import proofs.«153607_j72688026517737_2_alg».proof.Proof.Gen.KernelIdeal.Skeleton
import proofs.«153607_j72688026517737_2_alg».proof.Proof.ChamferSpec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx
open scoped BigOperators

namespace Cert.KernelIdeal.Payload

open Cert.KernelIdeal Cert.KernelIdeal.Gen Cert.Lib.MinOn Cert.Chamfer

/-! ## The batched contraction -/

/-- The kernel's dimension numbers: batch axis 0 on both sides, contraction over axis 1 of both, the left operand's
    axis 2 then the right operand's axis 2 in the result. -/
abbrev dotK := dot_S8x8x128_S8x8x2048_S8x128x2048_1_1_2_2_0_0

theorem lhs_0 (i : S8x128x2048.Idx) (q : dotK.contr.Idx) : (dotK.lhsIdx i q 0).val = (i 0).val := by
  unfold DotDims.lhsIdx
  rw [dif_pos (show (0 : Fin S8x8x128.rank) ∈ dotK.lhsBatch by decide)]
  rfl
theorem lhs_1 (i : S8x128x2048.Idx) (q : dotK.contr.Idx) : (dotK.lhsIdx i q 1).val = (q ⟨0, by decide⟩).val :=
  dotK.lhsIdx_val_of_single rfl i q
theorem lhs_2 (i : S8x128x2048.Idx) (q : dotK.contr.Idx) : (dotK.lhsIdx i q 2).val = (i 1).val := by
  unfold DotDims.lhsIdx
  rw [dif_neg (show ¬(2 : Fin S8x8x128.rank) ∈ dotK.lhsBatch by decide), dif_pos (show (2 : Fin S8x8x128.rank) ∈ dotK.lhsNonContracting by decide)]
  rfl
theorem rhs_0 (i : S8x128x2048.Idx) (q : dotK.contr.Idx) : (dotK.rhsIdx i q 0).val = (i 0).val := by
  unfold DotDims.rhsIdx
  rw [dif_pos (show (0 : Fin S8x8x2048.rank) ∈ dotK.rhsBatch by decide)]
  rfl
theorem rhs_1 (i : S8x128x2048.Idx) (q : dotK.contr.Idx) : (dotK.rhsIdx i q 1).val = (q ⟨0, by decide⟩).val :=
  dotK.rhsIdx_val_of_single rfl i q
theorem rhs_2 (i : S8x128x2048.Idx) (q : dotK.contr.Idx) : (dotK.rhsIdx i q 2).val = (i 2).val := by
  unfold DotDims.rhsIdx
  rw [dif_neg (show ¬(2 : Fin S8x8x2048.rank) ∈ dotK.rhsBatch by decide), dif_pos (show (2 : Fin S8x8x2048.rank) ∈ dotK.rhsNonContracting by decide)]
  rfl

/-- The contraction into the zero accumulator at (b, r, j): the sum over k of L[b,k,r] · R[b,k,j]. -/
theorem contraction_apply (v3 : FVec Ideal S8x8x128 .f32) (v5 : FVec Ideal S8x8x2048 .f32) (b : Fin 8) (r : Fin 128) (j : Fin 2048) :
    matmul dotK none v3 v5 (constant (F := Ideal) S8x128x2048 .f32 0x00000000#32) (ix3 b r j)
      = ∑ k : Fin 8, v3 (ix3 b k r) * v5 (ix3 b k j) := by
  refine (Ideal.matmul_constant_zero_apply dotK none v3 v5 (ix3 b r j)).trans ?_
  rw [← Equiv.sum_comp (contrEquiv1 dotK 8 rfl rfl).symm]
  refine Finset.sum_congr rfl fun k _ => ?_
  have hk := contrEquiv1_symm_val dotK 8 rfl rfl k
  have el : dotK.lhsIdx (ix3 b r j) ((contrEquiv1 dotK 8 rfl rfl).symm k) = ix3 b k r := funext fun a => Fin.ext (by
    match a with
    | ⟨0, _⟩ => exact lhs_0 _ _
    | ⟨1, _⟩ => exact (lhs_1 _ _).trans hk
    | ⟨2, _⟩ => exact lhs_2 _ _)
  have er : dotK.rhsIdx (ix3 b r j) ((contrEquiv1 dotK 8 rfl rfl).symm k) = ix3 b k j := funext fun a => Fin.ext (by
    match a with
    | ⟨0, _⟩ => exact rhs_0 _ _
    | ⟨1, _⟩ => exact (rhs_1 _ _).trans hk
    | ⟨2, _⟩ => exact rhs_2 _ _)
  rw [el, er]

/-! ## The two broadcast biases -/

/-- The tile's bias, viewed [8, 128, 1] and broadcast along the targets, reads A[b, r] at (b, r, j). -/
theorem row_bias_apply (v7 : Vec Ideal S8x128 .f32) (b : Fin 8) (r : Fin 128) (j : Fin 2048) :
    broadcastTo S8x128x2048 (shapeCast S8x128x1 v7 shapeCasts_S8x128_S8x128x1) broadcasts_S8x128x1_S8x128x2048 (ix3 b r j)
      = v7 (ix2 b r) := by
  refine (broadcastTo_apply _ _ (ix3 b r j) (ix3 b r (0 : Fin 1)) fun a => ?_).trans ?_
  · match a with
    | ⟨0, _⟩ => rfl
    | ⟨1, _⟩ => rfl
    | ⟨2, _⟩ => rfl
  · exact shapeCast_apply v7 _ _ _ (by
      rw [Shape.rowMajor_val_two, Shape.rowMajor_val_three]
      show b.val * 128 + r.val = (b.val * 128 + r.val) * 1 + 0
      omega)

/-- The target bias, viewed [8, 1, 2048] and broadcast along the tile's rows, reads B[b, j] at (b, r, j). -/
theorem col_bias_apply (v9 : Vec Ideal S8x2048 .f32) (b : Fin 8) (r : Fin 128) (j : Fin 2048) :
    broadcastTo S8x128x2048 (shapeCast S8x1x2048 v9 shapeCasts_S8x2048_S8x1x2048) broadcasts_S8x1x2048_S8x128x2048 (ix3 b r j)
      = v9 (ix2 b j) := by
  refine (broadcastTo_apply _ _ (ix3 b r j) (ix3 b (0 : Fin 1) j) fun a => ?_).trans ?_
  · match a with
    | ⟨0, _⟩ => rfl
    | ⟨1, _⟩ => rfl
    | ⟨2, _⟩ => rfl
  · exact shapeCast_apply v9 _ _ _ (by
      rw [Shape.rowMajor_val_two, Shape.rowMajor_val_three]
      show b.val * 2048 + j.val = (b.val * 1 + 0) * 2048 + j.val
      omega)

/-! ## The tile of divergences -/

/-- The tile at (b, r, j): contraction plus the row's bias plus the target's bias. -/
theorem tile_apply (v3 : Vec Ideal S8x8x128 .f32) (v5 : Vec Ideal S8x8x2048 .f32) (v7 : Vec Ideal S8x128 .f32) (v9 : Vec Ideal S8x2048 .f32) (b : Fin 8) (r : Fin 128) (j : Fin 2048) :
    k0_pay4 (F := Ideal) v3 v5 v7 v9 (ix3 b r j)
      = ((∑ k : Fin 8, v3 (ix3 b k r) * v5 (ix3 b k j)) + v7 (ix2 b r)) + v9 (ix2 b j) := by
  unfold k0_pay4
  simp only [shapeCast_self]
  refine (addf_apply _ _ _).trans ?_
  refine congrArg₂ (· + ·) ((addf_apply _ _ _).trans (congrArg₂ (· + ·) ?_ ?_)) ?_
  · exact contraction_apply v3 v5 b r j
  · exact row_bias_apply v7 b r j
  · exact col_bias_apply v9 b r j

/-! ## The two updates and the total -/

/-- The column-minimum update at (b, j): the minimum of the buffer's entry and of the greatest lower bound of the
    tile's column. -/
theorem colmin_update_apply (v3 : Vec Ideal S8x8x128 .f32) (v5 : Vec Ideal S8x8x2048 .f32) (v7 : Vec Ideal S8x128 .f32) (v9 : Vec Ideal S8x2048 .f32) (v27 : Vec Ideal S8x2048 .f32) (b : Fin 8) (j : Fin 2048) :
    ∃ tile : EReal, IsMinOn (fun _ : Fin 128 => True) (fun r => k0_pay4 (F := Ideal) v3 v5 v7 v9 (ix3 b r j)) tile
      ∧ k0_pay6 (F := Ideal) v3 v5 v7 v9 v27 (ix2 b j) = min (v27 (ix2 b j)) tile := by
  refine ⟨multiReduction .minimumf [1] S8x2048 (k0_pay4 (F := Ideal) v3 v5 v7 v9) 0x7F800000#32
    reduces_S8x128x2048_S8x2048 (.inl rfl) rfl (ix2 b j), ?_, ?_⟩
  · refine (multiReduction_minimumf_isMinOn (k0_pay4 (F := Ideal) v3 v5 v7 v9) 0x7F800000#32
      reduces_S8x128x2048_S8x2048 (.inl rfl) rfl posInf_eq (ix2 b j)).congr (fun _ => Iff.rfl) (fun r _ => congrArg _ ?_)
    exact funext fun a => Fin.ext (by match a with | ⟨0, _⟩ => rfl | ⟨1, _⟩ => rfl | ⟨2, _⟩ => rfl)
  · unfold k0_pay6
    simp only [shapeCast_self]
    rfl

/-- The row-minimum-sum update at b: what the buffer held plus the sum over the tile's rows of each row's greatest
    lower bound over the targets. -/
theorem rowsum_update_apply (v3 : Vec Ideal S8x8x128 .f32) (v5 : Vec Ideal S8x8x2048 .f32) (v7 : Vec Ideal S8x128 .f32) (v9 : Vec Ideal S8x2048 .f32) (v19 : Vec Ideal S8x1 .f32) (b : Fin 8) :
    ∃ rmin : Fin 128 → EReal,
      (∀ r, IsMinOn (fun _ : Fin 2048 => True) (fun j => k0_pay4 (F := Ideal) v3 v5 v7 v9 (ix3 b r j)) (rmin r))
      ∧ k0_pay5 (F := Ideal) v3 v5 v7 v9 v19 (ix2 b (0 : Fin 1)) = v19 (ix2 b (0 : Fin 1)) + ∑ r : Fin 128, rmin r := by
  refine ⟨fun r => multiReduction .minimumf [2] S8x128 (k0_pay4 (F := Ideal) v3 v5 v7 v9) 0x7F800000#32
    reduces_S8x128x2048_S8x128 (.inl rfl) rfl (ix2 b r), fun r => ?_, ?_⟩
  · refine (multiReduction_minimumf_isMinOn (k0_pay4 (F := Ideal) v3 v5 v7 v9) 0x7F800000#32
      reduces_S8x128x2048_S8x128 (.inl rfl) rfl posInf_eq (ix2 b r)).congr (fun _ => Iff.rfl) (fun j _ => congrArg _ ?_)
    exact funext fun a => Fin.ext (by match a with | ⟨0, _⟩ => rfl | ⟨1, _⟩ => rfl | ⟨2, _⟩ => rfl)
  · unfold k0_pay5
    simp only [shapeCast_self]
    refine (addf_apply _ _ _).trans (congrArg (v19 (ix2 b (0 : Fin 1)) + ·) ?_)
    refine (shapeCast_apply _ shapeCasts_S8_S8x1 (ix2 b (0 : Fin 1)) (ix1 b) (by
      rw [Shape.rowMajor_val_one, Shape.rowMajor_val_two]
      show b.val = b.val * 1 + 0
      omega)).trans ?_
    refine (Ideal.multiReduction_add_single _ 0x00000000#32 reduces_S8x128_S8 (.inl rfl) rfl (ix1 b)).trans ?_
    exact Finset.sum_congr rfl fun r _ => congrArg _ (funext fun a => Fin.ext (by match a with | ⟨0, _⟩ => rfl | ⟨1, _⟩ => rfl))

/-- The result at b: the sum of the column-minimum buffer's row b plus the row-minimum sum's entry b. -/
theorem total_apply (v35 : Vec Ideal S8x2048 .f32) (v38 : Vec Ideal S8x1 .f32) (b : Fin 8) :
    k0_pay1 (F := Ideal) v35 v38 (ix1 b) = (∑ j : Fin 2048, v35 (ix2 b j)) + v38 (ix2 b (0 : Fin 1)) := by
  unfold k0_pay1
  dsimp only
  refine (shapeCast_apply _ shapeCasts_S8x1_S8 (ix1 b) (ix2 b (0 : Fin 1)) (by
    rw [Shape.rowMajor_val_two, Shape.rowMajor_val_one]
    show b.val * 1 + 0 = b.val
    omega)).trans ?_
  refine (addf_apply _ _ _).trans (congrArg (· + v38 (ix2 b (0 : Fin 1))) ?_)
  refine (shapeCast_apply _ shapeCasts_S8_S8x1 (ix2 b (0 : Fin 1)) (ix1 b) (by
    rw [Shape.rowMajor_val_one, Shape.rowMajor_val_two]
    show b.val = b.val * 1 + 0
    omega)).trans ?_
  refine (Ideal.multiReduction_add_single _ 0x00000000#32 reduces_S8x2048_S8 (.inl rfl) rfl (ix1 b)).trans ?_
  exact Finset.sum_congr rfl fun j _ => congrArg _ (funext fun a => Fin.ext (by match a with | ⟨0, _⟩ => rfl | ⟨1, _⟩ => rfl))

/-- The block the first point resets the column minima to reads +inf everywhere. -/
theorem reset_colmin_apply (i : S8x2048.Idx) : k0_pay2 (F := Ideal) i = posInf := by
  unfold k0_pay2
  simp only [shapeCast_self]
  rfl

/-- The block the first point resets the row-minimum sum to reads zero everywhere. -/
theorem reset_rowsum_apply (i : S8x1.Idx) : k0_pay3 (F := Ideal) i = zero := by
  unfold k0_pay3
  simp only [shapeCast_self]
  rfl

end Cert.KernelIdeal.Payload

end
-- ==== Proof.KernelAcc.lean ====
/-
  THE SIXTEEN TILES, ACCUMULATED: what the kernel's two carried buffers hold after each point of the grid, and the
  result it writes at the last one.

  Write T[b, i, j] for the table of divergences the kernel works on: the fused arrangement `pairFused` of the four
  arrays its region finds (left and right operands, the two biases). Point t of the grid sees rows 128·t … 128·t + 127
  of the table: window 0 holds columns 128·t + r of the left operand, window 1 entries 128·t + r of the row bias, windows
  2 and 3 the whole right operand and column bias, so the tile the body computes at (b, r, j) is T[b, 128·t + r, j]
  (`tile_at`). By induction on the point:
   * the column-minimum buffer at (b, j) is the greatest lower bound of T[b, i, j] over the rows i below 128·(t + 1)
     (`colmin_inv`): it starts from +inf and each point takes the minimum with its tile's column minimum;
   * the row-minimum sum at b is the sum over those rows of the row minimum min_j T[b, i, j] (`rowsum_inv`): it starts
     from 0 and each point adds its 128 row minima.
  The last point totals the two, so the result is the chamfer loss of T (`kernel_isChamfer`).
-/
import proofs.«153607_j72688026517737_2_alg».proof.Proof.Gen.KernelIdeal.Frame
import proofs.«153607_j72688026517737_2_alg».proof.Proof.KernelPieces
import proofs.«153607_j72688026517737_2_alg».proof.Proof.KernelPayload
import proofs.«153607_j72688026517737_2_alg».proof.Proof.ChamferSpec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)
open scoped BigOperators

namespace Cert.KernelIdeal.Acc

open Cert.KernelIdeal Cert.KernelIdeal.Gen Cert.Lib.MinOn Cert.Chamfer

variable (m : (ℓ : Loc nD τ sig) → Buf (Elt Ideal) ℓ)

/-! ## The table the kernel works on -/

/-- The four arrays the region finds: left operand, right operand, row bias, column bias. -/
abbrev arrL (c : Dev nD) : (⟨3, ![8, 8, 2048]⟩ : Shape).Idx → EReal := V m c main_v23
abbrev arrR (c : Dev nD) : (⟨3, ![8, 8, 2048]⟩ : Shape).Idx → EReal := V m c main_v24
abbrev arrA (c : Dev nD) : (⟨2, ![8, 2048]⟩ : Shape).Idx → EReal := V m c main_v16
abbrev arrB (c : Dev nD) : (⟨2, ![8, 2048]⟩ : Shape).Idx → EReal := V m c main_v8

/-- The table of divergences: the fused arrangement of those four arrays. -/
def table (c : Dev nD) : Fin 8 → Fin 2048 → Fin 2048 → EReal :=
  pairFused (arrL m c) (arrR m c) (arrA m c) (arrB m c)

/-- The minimum of row (b, i) of the table over all targets, and that it is one. -/
def rowMin (c : Dev nD) (b : Fin 8) (i : Fin 2048) : EReal :=
  (Finset.univ : Finset (Fin 2048)).fold min ⊤ (fun j => table m c b i j)

theorem rowMin_isMinOn (c : Dev nD) (b : Fin 8) (i : Fin 2048) :
    IsMinOn (fun _ : Fin 2048 => True) (fun j => table m c b i j) (rowMin m c b i) :=
  (IsMinOn.fold Finset.univ _).congr (fun _ => ⟨fun _ => trivial, fun _ => Finset.mem_univ _⟩) (fun _ _ => rfl)

/-! ## The blocks a point reads -/

/-- Row `r` of the tile at point `t` is row `128·t + r` of the table. -/
def rowOf (t : Fin cfg0.N) (r : Fin 128) : Fin 2048 :=
  ⟨128 * t.val + r.val, by have hN : cfg0.N = 16 := N_0; have := t.isLt; have := r.isLt; omega⟩

/-- Where each window's block sits: window 0 moves along the last axis with the point, window 1 likewise, windows 2
    and 3 stay. -/
theorem idx0 : ∀ t : Fin cfg0.N, win0_0.index t 0 = 0 ∧ win0_0.index t 1 = 0 ∧ win0_0.index t 2 = t.val :=
  (by decide +kernel : ∀ t : Fin grid0.N, win0_0.index t 0 = 0 ∧ win0_0.index t 1 = 0 ∧ win0_0.index t 2 = t.val)
theorem idx1 : ∀ t : Fin cfg0.N, win0_1.index t 0 = 0 ∧ win0_1.index t 1 = t.val :=
  (by decide +kernel : ∀ t : Fin grid0.N, win0_1.index t 0 = 0 ∧ win0_1.index t 1 = t.val)
theorem idx2 : ∀ t : Fin cfg0.N, win0_2.index t 0 = 0 ∧ win0_2.index t 1 = 0 ∧ win0_2.index t 2 = 0 :=
  (by decide +kernel : ∀ t : Fin grid0.N, win0_2.index t 0 = 0 ∧ win0_2.index t 1 = 0 ∧ win0_2.index t 2 = 0)
theorem idx3 : ∀ t : Fin cfg0.N, win0_3.index t 0 = 0 ∧ win0_3.index t 1 = 0 :=
  (by decide +kernel : ∀ t : Fin grid0.N, win0_3.index t 0 = 0 ∧ win0_3.index t 1 = 0)

/-- Window 0's block at (b, k, r) is the left operand at (b, k, 128·t + r). -/
theorem blk0_apply (c : Dev nD) (t : Fin cfg0.N) (b : Fin 8) (k : Fin 8) (r : Fin 128) :
    (iblk m c 0 t : Vec Ideal S8x8x128 .f32) (ix3 b k r) = arrL m c (ix3 b k (rowOf t r)) := by
  unfold iblk
  rw [View.read_apply]
  show V m c main_v23 _ = V m c main_v23 _
  refine congrArg (V m c main_v23) (funext fun a => Fin.ext ?_)
  match a with
  | ⟨0, _⟩ => show win0_0.index t 0 * 8 + 1 * b.val = b.val; rw [(idx0 t).1]; omega
  | ⟨1, _⟩ => show win0_0.index t 1 * 8 + 1 * k.val = k.val; rw [(idx0 t).2.1]; omega
  | ⟨2, _⟩ => show win0_0.index t 2 * 128 + 1 * r.val = 128 * t.val + r.val; rw [(idx0 t).2.2]; omega

/-- Window 1's block at (b, r) is the row bias at (b, 128·t + r). -/
theorem blk1_apply (c : Dev nD) (t : Fin cfg0.N) (b : Fin 8) (r : Fin 128) :
    (iblk m c 1 t : Vec Ideal S8x128 .f32) (ix2 b r) = arrA m c (ix2 b (rowOf t r)) := by
  unfold iblk
  rw [View.read_apply]
  show V m c main_v16 _ = V m c main_v16 _
  refine congrArg (V m c main_v16) (funext fun a => Fin.ext ?_)
  match a with
  | ⟨0, _⟩ => show win0_1.index t 0 * 8 + 1 * b.val = b.val; rw [(idx1 t).1]; omega
  | ⟨1, _⟩ => show win0_1.index t 1 * 128 + 1 * r.val = 128 * t.val + r.val; rw [(idx1 t).2]; omega

/-- Window 2's block is the whole right operand. -/
theorem blk2_apply (c : Dev nD) (t : Fin cfg0.N) (b : Fin 8) (k : Fin 8) (j : Fin 2048) :
    (iblk m c 2 t : Vec Ideal S8x8x2048 .f32) (ix3 b k j) = arrR m c (ix3 b k j) := by
  unfold iblk
  rw [View.read_apply]
  show V m c main_v24 _ = V m c main_v24 _
  refine congrArg (V m c main_v24) (funext fun a => Fin.ext ?_)
  match a with
  | ⟨0, _⟩ => show win0_2.index t 0 * 8 + 1 * b.val = b.val; rw [(idx2 t).1]; omega
  | ⟨1, _⟩ => show win0_2.index t 1 * 8 + 1 * k.val = k.val; rw [(idx2 t).2.1]; omega
  | ⟨2, _⟩ => show win0_2.index t 2 * 2048 + 1 * j.val = j.val; rw [(idx2 t).2.2]; omega

/-- Window 3's block is the whole column bias. -/
theorem blk3_apply (c : Dev nD) (t : Fin cfg0.N) (b : Fin 8) (j : Fin 2048) :
    (iblk m c 3 t : Vec Ideal S8x2048 .f32) (ix2 b j) = arrB m c (ix2 b j) := by
  unfold iblk
  rw [View.read_apply]
  show V m c main_v8 _ = V m c main_v8 _
  refine congrArg (V m c main_v8) (funext fun a => Fin.ext ?_)
  match a with
  | ⟨0, _⟩ => show win0_3.index t 0 * 8 + 1 * b.val = b.val; rw [(idx3 t).1]; omega
  | ⟨1, _⟩ => show win0_3.index t 1 * 2048 + 1 * j.val = j.val; rw [(idx3 t).2]; omega

/-- The tile the body computes at point `t` is rows 128·t … 128·t + 127 of the table. -/
theorem tile_at (c : Dev nD) (t : Fin cfg0.N) (b : Fin 8) (r : Fin 128) (j : Fin 2048) :
    k0_pay4 (F := Ideal) (iblk m c 0 t) (iblk m c 2 t) (iblk m c 1 t) (iblk m c 3 t) (ix3 b r j) = table m c b (rowOf t r) j := by
  refine (Payload.tile_apply (iblk m c 0 t) (iblk m c 2 t) (iblk m c 1 t) (iblk m c 3 t) b r j).trans ?_
  unfold table pairFused
  refine congrArg₂ (· + ·) (congrArg₂ (· + ·) (Finset.sum_congr rfl fun k _ => ?_) (blk1_apply m c t b r)) (blk3_apply m c t b j)
  exact congrArg₂ (· * ·) (blk0_apply m c t b k r) (blk2_apply m c t b k j)

/-! ## What the run leaves after each point, as payloads of the point's blocks -/

/-- The column-minimum buffer after the first point. -/
theorem first_colmin (c : Dev nD) (h : 0 < cfg0.N) :
    (outsAt0 m c 0 h).2.1 = k0_pay6 (iblk m c 0 ⟨0, h⟩) (iblk m c 2 ⟨0, h⟩) (iblk m c 1 ⟨0, h⟩) (iblk m c 3 ⟨0, h⟩) (k0_pay2 (F := Ideal)) := by
  have h0 : (⟨0, h⟩ : Fin cfg0.N).val % 16 = 0 := rfl
  have h1 : ¬(⟨0, h⟩ : Fin cfg0.N).val % 16 = 15 := by show ¬(0 % 16 = 15); decide
  rw [outsAt0_A m c ⟨0, h⟩ h0 h1]
  dsimp only
  exact Pieces.colmin_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) scM0_1 (Memref.isWhole_whole _) ((hcond0_0 ⟨0, h⟩).mpr h0) (fun hh => h1 ((hcond0_1 ⟨0, h⟩).mp hh)) (iblk m c 0 ⟨0, h⟩) (iblk m c 1 ⟨0, h⟩) (iblk m c 2 ⟨0, h⟩) (iblk m c 3 ⟨0, h⟩)

/-- The row-minimum sum after the first point. -/
theorem first_rowsum (c : Dev nD) (h : 0 < cfg0.N) :
    (outsAt0 m c 0 h).2.2 = k0_pay5 (iblk m c 0 ⟨0, h⟩) (iblk m c 2 ⟨0, h⟩) (iblk m c 1 ⟨0, h⟩) (iblk m c 3 ⟨0, h⟩) (k0_pay3 (F := Ideal)) := by
  have h0 : (⟨0, h⟩ : Fin cfg0.N).val % 16 = 0 := rfl
  have h1 : ¬(⟨0, h⟩ : Fin cfg0.N).val % 16 = 15 := by show ¬(0 % 16 = 15); decide
  rw [outsAt0_A m c ⟨0, h⟩ h0 h1]
  dsimp only
  exact Pieces.rowsum_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) scM0_1 (Memref.isWhole_whole _) ((hcond0_0 ⟨0, h⟩).mpr h0) (fun hh => h1 ((hcond0_1 ⟨0, h⟩).mp hh)) (iblk m c 0 ⟨0, h⟩) (iblk m c 1 ⟨0, h⟩) (iblk m c 2 ⟨0, h⟩) (iblk m c 3 ⟨0, h⟩)

/-- The column-minimum buffer after a later point, over what the point before left. -/
theorem later_colmin (c : Dev nD) (t : Fin cfg0.N) (h0 : ¬t.val % 16 = 0) :
    (outsAt0 m c t.val t.isLt).2.1 = k0_pay6 (iblk m c 0 t) (iblk m c 2 t) (iblk m c 1 t) (iblk m c 3 t) (outsAt0 m c (t.val - 1) (Nat.lt_of_le_of_lt (Nat.sub_le _ _) t.isLt)).2.1 := by
  by_cases h1 : t.val % 16 = 15
  · rw [outsAt0_C m c t h0 h1]
    dsimp only
    exact Pieces.colmin_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun hh => h0 ((hcond0_0 t).mp hh)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h1]
    dsimp only
    exact Pieces.colmin_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun hh => h0 ((hcond0_0 t).mp hh)) (fun hh => h1 ((hcond0_1 t).mp hh)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2

/-- The row-minimum sum after a later point, over what the point before left. -/
theorem later_rowsum (c : Dev nD) (t : Fin cfg0.N) (h0 : ¬t.val % 16 = 0) :
    (outsAt0 m c t.val t.isLt).2.2 = k0_pay5 (iblk m c 0 t) (iblk m c 2 t) (iblk m c 1 t) (iblk m c 3 t) (outsAt0 m c (t.val - 1) (Nat.lt_of_le_of_lt (Nat.sub_le _ _) t.isLt)).2.2 := by
  by_cases h1 : t.val % 16 = 15
  · rw [outsAt0_C m c t h0 h1]
    dsimp only
    exact Pieces.rowsum_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun hh => h0 ((hcond0_0 t).mp hh)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h1]
    dsimp only
    exact Pieces.rowsum_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun hh => h0 ((hcond0_0 t).mp hh)) (fun hh => h1 ((hcond0_1 t).mp hh)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2

theorem next_colmin (c : Dev nD) (n : ℕ) (h : n + 1 < cfg0.N) :
    (outsAt0 m c (n + 1) h).2.1
      = k0_pay6 (iblk m c 0 ⟨n + 1, h⟩) (iblk m c 2 ⟨n + 1, h⟩) (iblk m c 1 ⟨n + 1, h⟩) (iblk m c 3 ⟨n + 1, h⟩) (outsAt0 m c n (Nat.lt_of_succ_lt h)).2.1 := by
  have hN : cfg0.N = 16 := N_0
  exact later_colmin m c ⟨n + 1, h⟩ (by dsimp only; omega)

theorem next_rowsum (c : Dev nD) (n : ℕ) (h : n + 1 < cfg0.N) :
    (outsAt0 m c (n + 1) h).2.2
      = k0_pay5 (iblk m c 0 ⟨n + 1, h⟩) (iblk m c 2 ⟨n + 1, h⟩) (iblk m c 1 ⟨n + 1, h⟩) (iblk m c 3 ⟨n + 1, h⟩) (outsAt0 m c n (Nat.lt_of_succ_lt h)).2.2 := by
  have hN : cfg0.N = 16 := N_0
  exact later_rowsum m c ⟨n + 1, h⟩ (by dsimp only; omega)

/-- The last point's result is the total of the two buffers as it leaves them. -/
theorem last_result (c : Dev nD) (h : 15 < cfg0.N) :
    (outsAt0 m c 15 h).1 = k0_pay1 (F := Ideal) (outsAt0 m c 15 h).2.1 (outsAt0 m c 15 h).2.2 := by
  have h0 : ¬(⟨15, h⟩ : Fin cfg0.N).val % 16 = 0 := by show ¬(15 % 16 = 0); decide
  have h1 : (⟨15, h⟩ : Fin cfg0.N).val % 16 = 15 := rfl
  rw [outsAt0_C m c ⟨15, h⟩ h0 h1]
  dsimp only
  rw [Pieces.result_C (F := Ideal) c (grid0.coords ⟨15, h⟩) (ms0_0 ⟨15, h⟩) (hs0_0 ⟨15, h⟩) (ms0_1 ⟨15, h⟩) (hs0_1 ⟨15, h⟩) (ms0_2 ⟨15, h⟩) (hs0_2 ⟨15, h⟩) (ms0_3 ⟨15, h⟩) (hs0_3 ⟨15, h⟩) (ms0_4 ⟨15, h⟩) (hs0_4 ⟨15, h⟩) scM0_0 (Memref.isWhole_whole _) scM0_1 (Memref.isWhole_whole _) (fun hh => h0 ((hcond0_0 ⟨15, h⟩).mp hh)) ((hcond0_1 ⟨15, h⟩).mpr h1) (iblk m c 0 ⟨15, h⟩) (iblk m c 1 ⟨15, h⟩) (iblk m c 2 ⟨15, h⟩) (iblk m c 3 ⟨15, h⟩) _ _,
    Pieces.colmin_C (F := Ideal) c (grid0.coords ⟨15, h⟩) (ms0_0 ⟨15, h⟩) (hs0_0 ⟨15, h⟩) (ms0_1 ⟨15, h⟩) (hs0_1 ⟨15, h⟩) (ms0_2 ⟨15, h⟩) (hs0_2 ⟨15, h⟩) (ms0_3 ⟨15, h⟩) (hs0_3 ⟨15, h⟩) (ms0_4 ⟨15, h⟩) (hs0_4 ⟨15, h⟩) scM0_0 (Memref.isWhole_whole _) scM0_1 (Memref.isWhole_whole _) (fun hh => h0 ((hcond0_0 ⟨15, h⟩).mp hh)) ((hcond0_1 ⟨15, h⟩).mpr h1) (iblk m c 0 ⟨15, h⟩) (iblk m c 1 ⟨15, h⟩) (iblk m c 2 ⟨15, h⟩) (iblk m c 3 ⟨15, h⟩) _ _,
    Pieces.rowsum_C (F := Ideal) c (grid0.coords ⟨15, h⟩) (ms0_0 ⟨15, h⟩) (hs0_0 ⟨15, h⟩) (ms0_1 ⟨15, h⟩) (hs0_1 ⟨15, h⟩) (ms0_2 ⟨15, h⟩) (hs0_2 ⟨15, h⟩) (ms0_3 ⟨15, h⟩) (hs0_3 ⟨15, h⟩) (ms0_4 ⟨15, h⟩) (hs0_4 ⟨15, h⟩) scM0_0 (Memref.isWhole_whole _) scM0_1 (Memref.isWhole_whole _) (fun hh => h0 ((hcond0_0 ⟨15, h⟩).mp hh)) ((hcond0_1 ⟨15, h⟩).mpr h1) (iblk m c 0 ⟨15, h⟩) (iblk m c 1 ⟨15, h⟩) (iblk m c 2 ⟨15, h⟩) (iblk m c 3 ⟨15, h⟩) _ _]

/-! ## The two invariants -/

/-- After point `n` the column-minimum buffer at (b, j) is the least of column j over the rows below 128·(n + 1). -/
theorem colmin_inv (c : Dev nD) : ∀ (n : ℕ) (h : n < cfg0.N) (b : Fin 8) (j : Fin 2048),
    IsMinOn (fun i : Fin 2048 => i.val < 128 * (n + 1)) (fun i => table m c b i j) ((outsAt0 m c n h).2.1 (ix2 b j))
  | 0, h, b, j => by
    rw [first_colmin m c h]
    obtain ⟨tile, htile, he⟩ := Payload.colmin_update_apply (iblk m c 0 ⟨0, h⟩) (iblk m c 2 ⟨0, h⟩) (iblk m c 1 ⟨0, h⟩) (iblk m c 3 ⟨0, h⟩) (k0_pay2 (F := Ideal)) b j
    rw [he, Payload.reset_colmin_apply, posInf_eq]
    exact colmin_step (fun i => table m c b i j) 0 (rowOf ⟨0, h⟩) (fun r => rfl) (colmin_zero _)
      (htile.congr (fun _ => Iff.rfl) (fun r _ => tile_at m c ⟨0, h⟩ b r j))
  | n + 1, h, b, j => by
    rw [next_colmin m c n h]
    obtain ⟨tile, htile, he⟩ := Payload.colmin_update_apply (iblk m c 0 ⟨n + 1, h⟩) (iblk m c 2 ⟨n + 1, h⟩) (iblk m c 1 ⟨n + 1, h⟩) (iblk m c 3 ⟨n + 1, h⟩)
      (outsAt0 m c n (Nat.lt_of_succ_lt h)).2.1 b j
    rw [he]
    exact colmin_step (fun i => table m c b i j) (n + 1) (rowOf ⟨n + 1, h⟩) (fun r => rfl)
      (colmin_inv c n (Nat.lt_of_succ_lt h) b j)
      (htile.congr (fun _ => Iff.rfl) (fun r _ => tile_at m c ⟨n + 1, h⟩ b r j))

/-- A tile's row minima are the table's. -/
theorem tile_rowmin (c : Dev nD) (t : Fin cfg0.N) (b : Fin 8) (r : Fin 128) {x : EReal}
    (hx : IsMinOn (fun _ : Fin 2048 => True) (fun j => k0_pay4 (F := Ideal) (iblk m c 0 t) (iblk m c 2 t) (iblk m c 1 t) (iblk m c 3 t) (ix3 b r j)) x) :
    x = rowMin m c b (rowOf t r) :=
  hx.unique ((rowMin_isMinOn m c b (rowOf t r)).congr (fun _ => Iff.rfl) (fun j _ => (tile_at m c t b r j).symm))

/-- After point `n` the row-minimum sum at b is the sum of the row minima of the rows below 128·(n + 1). -/
theorem rowsum_inv (c : Dev nD) : ∀ (n : ℕ) (h : n < cfg0.N) (b : Fin 8),
    (outsAt0 m c n h).2.2 (ix2 b (0 : Fin 1)) = rowsum (rowMin m c b) (n + 1)
  | 0, h, b => by
    rw [first_rowsum m c h]
    obtain ⟨rmin, hr, he⟩ := Payload.rowsum_update_apply (iblk m c 0 ⟨0, h⟩) (iblk m c 2 ⟨0, h⟩) (iblk m c 1 ⟨0, h⟩) (iblk m c 3 ⟨0, h⟩) (k0_pay3 (F := Ideal)) b
    rw [he, Payload.reset_rowsum_apply, zero_eq, zero_add,
      rowsum_step (rowMin m c b) 0 (rowOf ⟨0, h⟩) (fun r => rfl), rowsum_zero, zero_add]
    exact Finset.sum_congr rfl fun r _ => tile_rowmin m c ⟨0, h⟩ b r (hr r)
  | n + 1, h, b => by
    rw [next_rowsum m c n h]
    obtain ⟨rmin, hr, he⟩ := Payload.rowsum_update_apply (iblk m c 0 ⟨n + 1, h⟩) (iblk m c 2 ⟨n + 1, h⟩) (iblk m c 1 ⟨n + 1, h⟩) (iblk m c 3 ⟨n + 1, h⟩)
      (outsAt0 m c n (Nat.lt_of_succ_lt h)).2.2 b
    rw [he, rowsum_inv c n (Nat.lt_of_succ_lt h) b,
      rowsum_step (rowMin m c b) (n + 1) (rowOf ⟨n + 1, h⟩) (fun r => rfl)]
    exact congrArg (_ + ·) (Finset.sum_congr rfl fun r _ => tile_rowmin m c ⟨n + 1, h⟩ b r (hr r))

/-! ## The result -/

/-- What the last point writes is the chamfer loss of the table. -/
theorem kernel_isChamfer (c : Dev nD) (h : 15 < cfg0.N) :
    IsChamfer (table m c) (fun b => (outsAt0 m c 15 h).1 (ix1 b)) := by
  refine ⟨fun b j => (outsAt0 m c 15 h).2.1 (ix2 b j), rowMin m c,
    fun b j => colmin_all _ (colmin_inv m c 15 h b j), fun b i => rowMin_isMinOn m c b i, fun b => ?_⟩
  show (outsAt0 m c 15 h).1 (ix1 b) = _
  rw [last_result m c h]
  refine (Payload.total_apply _ _ b).trans ?_
  exact congrArg ((∑ j : Fin 2048, (outsAt0 m c 15 h).2.1 (ix2 b j)) + ·) ((rowsum_inv m c 15 h b).trans (rowsum_all _))

end Cert.KernelIdeal.Acc

end
-- ==== Proof.KernelResult.lean ====
/-
  THE RESULT ARRAY AFTER THE RUN IS WHAT THE LAST POINT WROTE.

  The output window's block is the whole [8] result array at every point (its index never moves), the pipeline writes
  it back once, after the last point, and the body stores into its staging buffer only there. So the result array ends
  holding what the last point left in that buffer: one write-back whose block, read through zero offsets, is the array,
  and which covers every index.
-/
import proofs.«153607_j72688026517737_2_alg».proof.Proof.Gen.KernelIdeal.Value
import Idealize.ShloMosaic.Lib.Pipeline.Value

noncomputable section

open Idealize.ShloMosaic Idealize.ShloMosaic.TcCoe Idealize.SL.Sem
open Idealize.ShloMosaic.Pipeline (Dat)

namespace Cert.KernelIdeal.Final

open Cert.KernelIdeal Cert.KernelIdeal.Gen

variable {F : FTy → Type} [FloatOps F]
variable (m : (ℓ : Loc nD τ sig) → Buf (Elt F) ℓ)

/-- The grid has sixteen points; the last is point 15. -/
theorem last_lt : 15 < cfg0.N := by rw [show cfg0.N = 16 from N_0]; decide

/-- What the last point leaves in the output's staging buffer, as contents of the result array. -/
abbrev result (c : Dev nD) : Buf (Elt F) ((c : Thread nD τ).loc main_v25) := (outsAt0 m c 15 last_lt).1

/-- The one write-back, after point 15, writes it: the block at index 0 of the [8] array, read through zero offsets,
    is the array. -/
theorem flushed_eq (c : Dev nD) (t : Fin cfg0.N) (hf : (cfg0.win 4).flush t = true) :
    (dats m 0 c).flushed 4 t = ((cfg0.win 4).blk t).view.read (Elt F) (result m c) := by
  have hN : cfg0.N = 16 := N_0
  have h15 : t.val = 15 := by have := (flush0_4 t).mp hf; have := t.isLt; omega
  obtain rfl : t = t0_15 := Fin.ext h15
  show (cfg0.win 4).cut (grid0.coords t0_15) ((dats m 0 c).after 4 t0_15) = _
  rw [after0_4]
  have hz' : (fun a => win0_4.index t0_15 a * main_v25.ty.shape.size a) = fun _ => 0 :=
    funext fun a => by fin_cases a <;> decide
  exact (Memref.read_access_unit_zero (Elt F) main_v25 hz' (fun a => by rw [congrFun hz' a]; simp) (result m c)).symm

/-- So the result array ends holding what point 15 left: that point's block covers every index. -/
theorem final_result (c : Dev nD) : (dats m 0 c).arrAt 4 cfg0.N = result m c :=
  (dats m 0 c).arrAt_eq_of_cover 4 (result m c) (flushed_eq m c) fun i =>
    ⟨t0_15, (flush0_4 t0_15).mpr rfl, by
      show i ∈ ((View.whole main_v25).slice (win0_4.rect t0_15)).set
      rw [View.set_slice_whole, Rect.mem_set_unit]
      intro a
      have h0 : (i 0 : Nat) < 8 := (i 0).isLt
      match a with
      | ⟨0, _⟩ =>
        show win0_4.index t0_15 0 * win0_4.size 0 ≤ (i 0 : Nat)
          ∧ (i 0 : Nat) < win0_4.index t0_15 0 * win0_4.size 0 + win0_4.xsize (grid0.coords t0_15) 0
        rw [show win0_4.index t0_15 0 * win0_4.size 0 = 0 from by decide +kernel,
          show win0_4.xsize (grid0.coords t0_15) 0 = 8 from by decide +kernel]
        omega⟩

end Cert.KernelIdeal.Final

end
-- ==== Proof.HostFeatures.lean ====
/-
  THE FOUR ARRAYS THE KERNEL IS LAUNCHED ON, AS FUNCTIONS OF THE ARGUMENTS.

  Before the kernel runs, the program prepares from the means and log-variances of the predicted Gaussians (x0, x1) and
  of the targets (x2, x3):
    invVar x3            = exp(−x3)                                   the targets' inverse variances, [8, 2048, 4];
    lhsAug x0 x1 [b,k,i] = ½·(exp(x1) + x0²)[b,i,k] for k < 4,  x0[b,i,k−4] for k ≥ 4      (two [8,2048,4] arrays joined
                           along the last axis, then the last two axes exchanged: [8, 8, 2048]);
    rhsAug x2 x3 [b,k,j] = invVar[b,j,k] for k < 4,  (−x2 · invVar)[b,j,k−4] for k ≥ 4;
    biasPred x1 [b,i]    = −½·(4 + Σ_d x1[b,i,d]);
    biasTarget x2 x3 [b,j] = ½·(Σ_d x3[b,j,d] + Σ_d (x2² · invVar)[b,j,d]).
  These are the program's own operations, composed; nothing is computed here.
-/
import proofs.«153607_j72688026517737_2_alg».proof.KernelIdeal
import proofs.«153607_j72688026517737_2_alg».proof.Proof.Gen.KernelIdeal
import Idealize.ShloMosaic.PureOps.Ideal

noncomputable section

open Idealize.ShloMosaic

namespace Cert.KernelIdeal.Features

open Cert.KernelIdeal Cert.KernelIdeal.Facts₀

/-- One of the four [8, 2048, 4] arguments at the ideal values. -/
abbrev In : Type := FVec Ideal S8x2048x4 .f32

/-- The targets' inverse variances. -/
def invVar (x3 : In) : In := Host.exp (Host.negf x3)

/-- The left operand of the fused contraction. -/
def lhsAug (x0 x1 : In) : FVec Ideal S8x8x2048 .f32 :=
  transpose S8x8x2048 [0, 2, 1]
    (concatenate S8x2048x8 2
      [⟨S8x2048x4, mulf (broadcastInDim S8x2048x4 ![] bcast_S_S8x2048x4 (constant (F := Ideal) S_ .f32 0x3F000000#32))
          (addf (Host.exp x1) (mulf x0 x0))⟩,
       ⟨S8x2048x4, x0⟩] concatenates_S8x2048x4_S8x2048x4_S8x2048x8_d2)
    transposes_S8x2048x8_S8x8x2048_0_2_1

/-- The right operand of the fused contraction. -/
def rhsAug (x2 x3 : In) : FVec Ideal S8x8x2048 .f32 :=
  transpose S8x8x2048 [0, 2, 1]
    (concatenate S8x2048x8 2
      [⟨S8x2048x4, invVar x3⟩, ⟨S8x2048x4, mulf (Host.negf x2) (invVar x3)⟩] concatenates_S8x2048x4_S8x2048x4_S8x2048x8_d2)
    transposes_S8x2048x8_S8x8x2048_0_2_1

/-- The bias of a predicted Gaussian. -/
def biasPred (x1 : In) : FVec Ideal S8x2048 .f32 :=
  mulf (broadcastInDim S8x2048 ![] bcast_S_S8x2048 (constant (F := Ideal) S_ .f32 0xBF000000#32))
    (addf (broadcastInDim S8x2048 ![] bcast_S_S8x2048 (constant (F := Ideal) S_ .f32 0x40800000#32))
      (Host.reduceAdd x1 (constant (F := Ideal) S_ .f32 0x00000000#32) reducesTo_S8x2048x4_S8x2048_d2 h_S_))

/-- The bias of a target Gaussian. -/
def biasTarget (x2 x3 : In) : FVec Ideal S8x2048 .f32 :=
  mulf (broadcastInDim S8x2048 ![] bcast_S_S8x2048 (constant (F := Ideal) S_ .f32 0x3F000000#32))
    (addf (Host.reduceAdd x3 (constant (F := Ideal) S_ .f32 0x00000000#32) reducesTo_S8x2048x4_S8x2048_d2 h_S_)
      (Host.reduceAdd (mulf (mulf x2 x2) (invVar x3)) (constant (F := Ideal) S_ .f32 0x00000000#32)
        reducesTo_S8x2048x4_S8x2048_d2 h_S_))

end Cert.KernelIdeal.Features

end
-- ==== Proof.HostRegion.lean ====
/-
  WHAT THE KERNEL'S REGION FINDS IN ITS FOUR INPUT ARRAYS: the features of the arguments.

  The thirty-two host operations before the launch write, into the arrays the kernel's four input windows read, the
  augmented left and right operands and the two biases of the arguments as launched. Each is the operations' composed
  term, read off the list of operations.
-/
import proofs.«153607_j72688026517737_2_alg».proof.Proof.Gen.KernelIdeal.Frame
import proofs.«153607_j72688026517737_2_alg».proof.Proof.HostFeatures
import Idealize.ShloMosaic.Lib.StableHlo.Run

noncomputable section

open Idealize.ShloMosaic Idealize.ShloMosaic.TcCoe Idealize.SL.Sem Idealize.ShloMosaic.StableHlo

namespace Cert.KernelIdeal.Region

open Cert.KernelIdeal Cert.KernelIdeal.Gen Cert.KernelIdeal.Features

variable (m : (ℓ : Loc nD τ sig) → Buf (Elt Ideal) ℓ)

set_option maxHeartbeats 2000000 in
/-- Window 0's array holds the left operand. -/
theorem V_lhs (c : Dev nD) : (V m c main_v23 : S8x8x2048.Idx → EReal)
    = lhsAug (m ((c : Thread nD τ).loc main_arg0)) (m ((c : Thread nD τ).loc main_arg1)) := by
  show StableHlo.after hostOps0 (fun b => m (c, b)) (Proc.devRef .tc main_v23) = _
  after_results_simp <;> rfl

set_option maxHeartbeats 2000000 in
/-- Window 1's array holds the predicted Gaussians' biases. -/
theorem V_biasPred (c : Dev nD) : (V m c main_v16 : S8x2048.Idx → EReal)
    = biasPred (m ((c : Thread nD τ).loc main_arg1)) := by
  show StableHlo.after hostOps0 (fun b => m (c, b)) (Proc.devRef .tc main_v16) = _
  after_results_simp <;> rfl

set_option maxHeartbeats 2000000 in
/-- Window 2's array holds the right operand. -/
theorem V_rhs (c : Dev nD) : (V m c main_v24 : S8x8x2048.Idx → EReal)
    = rhsAug (m ((c : Thread nD τ).loc main_arg2)) (m ((c : Thread nD τ).loc main_arg3)) := by
  show StableHlo.after hostOps0 (fun b => m (c, b)) (Proc.devRef .tc main_v24) = _
  after_results_simp <;> rfl

set_option maxHeartbeats 2000000 in
/-- Window 3's array holds the targets' biases. -/
theorem V_biasTarget (c : Dev nD) : (V m c main_v8 : S8x2048.Idx → EReal)
    = biasTarget (m ((c : Thread nD τ).loc main_arg2)) (m ((c : Thread nD τ).loc main_arg3)) := by
  show StableHlo.after hostOps0 (fun b => m (c, b)) (Proc.devRef .tc main_v8) = _
  after_results_simp <;> rfl

end Cert.KernelIdeal.Region

end
-- ==== Proof.HostFeaturesRead.lean ====
/-
  THE FOUR PREPARED ARRAYS, READ AT AN INDEX.

  Before the kernel runs the program prepares, from the predicted Gaussians' means x0 and log-variances x1 and the
  targets' means x2 and log-variances x3, four arrays.  This module reads each of them at an index, at the ideal
  (extended real) values:
   * the inverse variances: invVar x3 at (b, j, d) is exp(-x3[b, j, d]);
   * the left operand, of width 8: rows 0..3 hold 1/2 * (exp(x1) + x0 * x0) at (b, i, d), rows 4..7 hold x0 at
     (b, i, d).  It is two [8, 2048, 4] arrays joined along the last axis, with the last two axes then exchanged, so
     reading at (b, k, i) reads the joined array at (b, i, k), which falls in the first piece for k < 4 and in the
     second piece, at k - 4, otherwise;
   * the right operand likewise: rows 0..3 hold exp(-x3) at (b, j, d), rows 4..7 hold (-x2) * exp(-x3);
   * the bias of a predicted Gaussian: -1/2 * (4 + (0 + sum_d x1[b, i, d])), the sum over the last axis being the
     initial value plus the sum over its four coordinates;
   * the bias of a target: 1/2 * ((0 + sum_d x3[b, j, d]) + (0 + sum_d (x2 * x2) * exp(-x3) at (b, j, d))).
  The float literals are the ones the specification names (half, negHalf, four, zero); no word is evaluated.
-/
import proofs.«153607_j72688026517737_2_alg».proof.Proof.HostFeatures
import proofs.«153607_j72688026517737_2_alg».proof.Proof.ChamferSpec
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.KernelIdeal.Features

open Cert.KernelIdeal Cert.Chamfer Idealize.ShloMosaic Idealize.ShloMosaic.ValueIdx
open scoped BigOperators

/-- The inverse variance at an index: the exponential of the negated log-variance. -/
theorem invVar_apply (x3 : In) (i : S8x2048x4.Idx) : invVar x3 i = Ideal.exp (-(x3 i)) := by
  unfold invVar
  show FloatOps.hostUnary .exp (FloatOps.hostNegf (x3 i)) = _
  simp only [Ideal.hostUnary_exp_def, Ideal.hostNegf_def, Ideal.negf_def]

/-- Rows 0..3 of the left operand: the exchange of the last two axes reads the joined array at (b, i, d), which lies in
    the first piece. -/
theorem lhsAug_lo (x0 x1 : In) (b : Fin 8) (i : Fin 2048) (d : Fin 4) :
    lhsAug x0 x1 (ix3 b (Fin.castAdd 4 d : Fin 8) i) = half * (Ideal.exp (x1 (ix3 b i d)) + x0 (ix3 b i d) * x0 (ix3 b i d)) := by
  unfold lhsAug
  refine (transpose_ix3_021_apply (m := 8) (a := 2048) (b := 8) _ _ b (Fin.castAdd 4 d : Fin 8) i).trans ?_
  refine (concatenate_pair_apply_left (t := S8x2048x8) (s₁ := S8x2048x4) (s₂ := S8x2048x4) (2 : Fin 3) _ _ _
    (ix3 b i (Fin.castAdd 4 d : Fin 8)) rfl (ix3 b i d : S8x2048x4.Idx)
    (fun a => by match a with | ⟨0, _⟩ => rfl | ⟨1, _⟩ => rfl | ⟨2, _⟩ => rfl)).trans ?_
  rw [mulf_apply, addf_apply, mulf_apply, broadcastInDim_scalar_apply, constant_apply]
  rfl

/-- Rows 4..7 of the left operand: the joined array at (b, i, 4 + d) lies in the second piece, at (b, i, d). -/
theorem lhsAug_hi (x0 x1 : In) (b : Fin 8) (i : Fin 2048) (d : Fin 4) :
    lhsAug x0 x1 (ix3 b (Fin.natAdd 4 d : Fin 8) i) = x0 (ix3 b i d) := by
  unfold lhsAug
  refine (transpose_ix3_021_apply (m := 8) (a := 2048) (b := 8) _ _ b (Fin.natAdd 4 d : Fin 8) i).trans ?_
  exact concatenate_pair_apply_right (t := S8x2048x8) (s₁ := S8x2048x4) (s₂ := S8x2048x4) (2 : Fin 3) _ _ _
    (ix3 b i (Fin.natAdd 4 d : Fin 8)) rfl rfl (ix3 b i d : S8x2048x4.Idx)
    (fun a ha => by
      match a, ha with
      | ⟨0, _⟩, _ => rfl
      | ⟨1, _⟩, _ => rfl
      | ⟨2, _⟩, ha => exact absurd rfl ha)
    (by show d.val + 4 = 4 + d.val; omega)

/-- Rows 0..3 of the right operand: the inverse variances at (b, j, d). -/
theorem rhsAug_lo (x2 x3 : In) (b : Fin 8) (j : Fin 2048) (d : Fin 4) :
    rhsAug x2 x3 (ix3 b (Fin.castAdd 4 d : Fin 8) j) = Ideal.exp (-(x3 (ix3 b j d))) := by
  unfold rhsAug
  refine (transpose_ix3_021_apply (m := 8) (a := 2048) (b := 8) _ _ b (Fin.castAdd 4 d : Fin 8) j).trans ?_
  refine (concatenate_pair_apply_left (t := S8x2048x8) (s₁ := S8x2048x4) (s₂ := S8x2048x4) (2 : Fin 3) _ _ _
    (ix3 b j (Fin.castAdd 4 d : Fin 8)) rfl (ix3 b j d : S8x2048x4.Idx)
    (fun a => by match a with | ⟨0, _⟩ => rfl | ⟨1, _⟩ => rfl | ⟨2, _⟩ => rfl)).trans ?_
  exact invVar_apply x3 (ix3 b j d)

/-- Rows 4..7 of the right operand: the negated target mean times the inverse variance, at (b, j, d). -/
theorem rhsAug_hi (x2 x3 : In) (b : Fin 8) (j : Fin 2048) (d : Fin 4) :
    rhsAug x2 x3 (ix3 b (Fin.natAdd 4 d : Fin 8) j) = -(x2 (ix3 b j d)) * Ideal.exp (-(x3 (ix3 b j d))) := by
  unfold rhsAug
  refine (transpose_ix3_021_apply (m := 8) (a := 2048) (b := 8) _ _ b (Fin.natAdd 4 d : Fin 8) j).trans ?_
  refine (concatenate_pair_apply_right (t := S8x2048x8) (s₁ := S8x2048x4) (s₂ := S8x2048x4) (2 : Fin 3) _ _ _
    (ix3 b j (Fin.natAdd 4 d : Fin 8)) rfl rfl (ix3 b j d : S8x2048x4.Idx)
    (fun a ha => by
      match a, ha with
      | ⟨0, _⟩, _ => rfl
      | ⟨1, _⟩, _ => rfl
      | ⟨2, _⟩, ha => exact absurd rfl ha)
    (by show d.val + 4 = 4 + d.val; omega)).trans ?_
  rw [mulf_apply, invVar_apply]
  show FloatOps.hostNegf (x2 (ix3 b j d)) * _ = _
  simp only [Ideal.hostNegf_def, Ideal.negf_def]

/-- The bias of a predicted Gaussian: the sum over the last axis is the initial value plus the sum over its four
    coordinates, the source index over (b, i) with coordinate d inserted being (b, i, d). -/
theorem biasPred_apply (x1 : In) (b : Fin 8) (i : Fin 2048) :
    biasPred x1 (ix2 b i) = negHalf * (four + (zero + ∑ d : Fin 4, x1 (ix3 b i d))) := by
  unfold biasPred
  rw [mulf_apply, addf_apply, broadcastInDim_scalar_apply, broadcastInDim_scalar_apply, constant_apply, constant_apply,
    hostReduceAdd_apply, constant_apply]
  rw [Ideal.hostReduceAdd_single _ (by decide)]
  refine congrArg (_ * ·) (congrArg (_ + ·) (congrArg (_ + ·) (Finset.sum_congr rfl fun k _ => ?_)))
  exact congrArg x1 (funext fun a => Fin.ext (by match a with | ⟨0, _⟩ => rfl | ⟨1, _⟩ => rfl | ⟨2, _⟩ => rfl))

/-- The bias of a target: two such sums, of the log-variances and of the squared means times the inverse variances. -/
theorem biasTarget_apply (x2 x3 : In) (b : Fin 8) (j : Fin 2048) :
    biasTarget x2 x3 (ix2 b j)
      = half * ((zero + ∑ d : Fin 4, x3 (ix3 b j d)) + (zero + ∑ d : Fin 4, (x2 (ix3 b j d) * x2 (ix3 b j d)) * Ideal.exp (-(x3 (ix3 b j d))))) := by
  unfold biasTarget
  rw [mulf_apply, addf_apply, broadcastInDim_scalar_apply, constant_apply, hostReduceAdd_apply, hostReduceAdd_apply,
    constant_apply]
  rw [Ideal.hostReduceAdd_single _ (by decide), Ideal.hostReduceAdd_single _ (by decide)]
  refine congrArg (_ * ·) (congrArg₂ (· + ·) (congrArg (_ + ·) (Finset.sum_congr rfl fun k _ => ?_))
    (congrArg (_ + ·) (Finset.sum_congr rfl fun k _ => ?_)))
  · exact congrArg x3 (funext fun a => Fin.ext (by match a with | ⟨0, _⟩ => rfl | ⟨1, _⟩ => rfl | ⟨2, _⟩ => rfl))
  · refine (congrArg (mulf (mulf x2 x2) (invVar x3)) (?_ : _ = ix3 (n2 := 4) b j k)).trans ?_
    · exact funext fun a => Fin.ext (by match a with | ⟨0, _⟩ => rfl | ⟨1, _⟩ => rfl | ⟨2, _⟩ => rfl)
    · exact (mulf_apply _ _ _).trans (congrArg₂ (· * ·) (mulf_apply _ _ _) (invVar_apply _ _))

end Cert.KernelIdeal.Features

end
-- ==== Proof.FusedAlgebra.lean ====
/-
  The fused arrangement of the pairwise divergence equals the expanded one, for real-valued
  arguments.

  With real means a, c and real log-variances l, g in dimension 4, and E_d = exp(-g_d), the
  fused arrangement is
      sum_d 1/2 (exp(l_d) + a_d^2) E_d  +  sum_d a_d (-c_d E_d)
        - 1/2 (4 + sum_d l_d)  +  1/2 (sum_d g_d + sum_d c_d^2 E_d),
  and the expanded divergence is
      -1/2 ( 4 + sum_d l_d - sum_d g_d - sum_d exp(l_d) E_d
             - ( sum_d a_d^2 E_d - 2 sum_d a_d (c_d E_d) + sum_d c_d^2 E_d ) ).
  Both are the same polynomial in the a_d, c_d, l_d, g_d, exp(l_d) and E_d.  Over the extended
  reals the ring laws fail at the infinities, so the identity is proved where it holds: every
  entry is the image of a real, the exponential of a real is real, each four-term sum is
  written out, every operation is moved inside the coercion from the reals, and the identity is
  then one of commutative ring arithmetic in the real numbers.
-/
import proofs.«153607_j72688026517737_2_alg».proof.Proof.ChamferSpec

noncomputable section

namespace Cert.Chamfer

open Idealize.ShloMosaic Idealize.ShloMosaic.ValueIdx

/-- For real-valued arguments the fused arrangement (one width-8 contraction split into its two halves, plus the two biases) is the expanded divergence. -/
theorem fused_eq_pair (x0 x1 x2 x3 : Arr)
    (h0 : ∀ i, ∃ r : ℝ, x0 i = (r : EReal)) (h1 : ∀ i, ∃ r : ℝ, x1 i = (r : EReal))
    (h2 : ∀ i, ∃ r : ℝ, x2 i = (r : EReal)) (h3 : ∀ i, ∃ r : ℝ, x3 i = (r : EReal))
    (b : Fin 8) (i j : Fin 2048) :
    (((∑ d : Fin 4, (half * (Ideal.exp (x1 (ix3 b i d)) + x0 (ix3 b i d) * x0 (ix3 b i d))) * Ideal.exp (-(x3 (ix3 b j d))))
        + ∑ d : Fin 4, x0 (ix3 b i d) * (-(x2 (ix3 b j d)) * Ideal.exp (-(x3 (ix3 b j d)))))
      + negHalf * (four + (zero + ∑ d : Fin 4, x1 (ix3 b i d))))
      + half * ((zero + ∑ d : Fin 4, x3 (ix3 b j d))
                + (zero + ∑ d : Fin 4, (x2 (ix3 b j d) * x2 (ix3 b j d)) * Ideal.exp (-(x3 (ix3 b j d)))))
    = pair x0 x1 x2 x3 b i j := by
  -- real witnesses for the four rows that occur: means a, c and log-variances l, g
  choose a ha using fun d : Fin 4 => h0 (ix3 b i d)
  choose l hl using fun d : Fin 4 => h1 (ix3 b i d)
  choose c hc using fun d : Fin 4 => h2 (ix3 b j d)
  choose g hg using fun d : Fin 4 => h3 (ix3 b j d)
  unfold pair
  -- write each four-term sum out and replace every entry by its real witness
  simp only [Fin.sum_univ_four, ha, hl, hc, hg]
  -- the literals are reals, the exponential of a real is real, and every operation between
  -- images of reals is the image of the real operation
  simp only [negHalf_eq, half_eq, four_eq, two_eq, zero_eq, zero_add, ← EReal.coe_neg,
    Ideal.exp_coe, ← EReal.coe_mul, ← EReal.coe_add, ← EReal.coe_sub]
  -- an identity of real polynomials in the witnesses and their exponentials
  exact congrArg Real.toEReal (by ring)

end Cert.Chamfer

end
-- ==== Proof.FiniteInputs.lean ====
/-
  The precondition "all four inputs are finite", read back.

  The printed precondition computes, for each of the four [8, 2048, 4] arguments x, the
  conjunction over every entry of the test |x| < +infinity, and joins the four results by
  "and"; the claim supplies that the joined result is 1.  At the ideal instance a float is an
  extended real, |x| is max x (-x), and the bit pattern 0x7F800000 denotes the top element.
  So each entry e satisfies max e (-e) < top, which excludes both infinities: every entry of
  every argument is the image of a real number.
-/
import proofs.«153607_j72688026517737_2_alg».proof.Pre_finite_inputs
import proofs.«153607_j72688026517737_2_alg».proof.Proof.Gen.Pre_finite_inputs
import Idealize.ShloMosaic.PureOps.Ideal
import Idealize.ShloMosaic.Lib.ValueIdx
import Idealize.ShloMosaic.Lib.ReduceAll

noncomputable section

namespace Cert.Chamfer.Finite

open Idealize.ShloMosaic Idealize.ShloMosaic.ValueIdx
open Cert.Pre_finite_inputs

/-- The scalar shape has exactly one index. -/
instance subsingleton_scalar_idx : Subsingleton S_.Idx := ⟨fun a b => funext fun d => d.elim0⟩

/-- An extended real whose absolute value max x (-x) compares strictly below the value of the
    pattern 0x7F800000 (the top element) is a real number: at either infinity the absolute
    value is the top element itself, which is not strictly below itself. -/
theorem real_of_abs_lt_top (x : EReal)
    (h : Ideal.cmp .olt (max x (-x)) (Ideal.ofBits .f32 0x7F800000#32) = 1#1) :
    ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- An array all of whose entries pass the test |x| < +infinity (the conjunction over all three
    axes came out 1) is real-valued. -/
theorem real_of_all (x : FVec Ideal S8x2048x4 .f32)
    (hb : S_.BroadcastsInDim S8x2048x4 (![] : Fin 0 → Fin S8x2048x4.rank))
    (hr : S8x2048x4.ReducesTo [0, 1, 2] S_) (hu : 0 < S_.numel)
    (h : Host.reduce IntOp.andi
          (cmpf .olt (Host.absf x)
            (broadcastInDim S8x2048x4 ![] hb (constant (F := Ideal) S_ .f32 0x7F800000#32)))
          (constantI S_ 1 1#1) hr hu ix0 = 1#1) :
    ∀ i, ∃ r : ℝ, x i = (r : EReal) := by
  intro i
  have e := Host.reduce_andi_all _ _ hr hu ix0 h i
  exact real_of_abs_lt_top (x i) e

/-- under the printed precondition every entry of the four arguments is a real number -/
theorem real_of_pre [Cert.Pre_finite_inputs.Facts]
    (x0 x1 x2 x3 : FVec Ideal Cert.Pre_finite_inputs.S8x2048x4 .f32)
    (h : Cert.Pre_finite_inputs.fn (F := Ideal) x0 x1 x2 x3 = fun _ => 1#1) :
    (∀ i, ∃ r : ℝ, x0 i = (r : EReal)) ∧ (∀ i, ∃ r : ℝ, x1 i = (r : EReal)) ∧
    (∀ i, ∃ r : ℝ, x2 i = (r : EReal)) ∧ (∀ i, ∃ r : ℝ, x3 i = (r : EReal)) := by
  -- the one entry of the scalar result
  have e := congrFun h ix0
  dsimp only [Cert.Pre_finite_inputs.fn, Cert.Pre_finite_inputs.fn_part1] at e
  -- the joined result is 1 exactly when each of the four conjunctions is
  simp only [andi, IntOp.andi_eq_one] at e
  obtain ⟨⟨⟨h0, h1⟩, h2⟩, h3⟩ := e
  exact ⟨real_of_all x0 _ _ _ h0, real_of_all x1 _ _ _ h1, real_of_all x2 _ _ _ h2,
    real_of_all x3 _ _ _ h3⟩

end Cert.Chamfer.Finite

end
-- ==== Proof.ReferenceLoss.lean ====
/-
  THE REFERENCE PROGRAM COMPUTES THE CHAMFER LOSS OF THE PAIRWISE DIVERGENCE TABLE.

  The reference builds, for every batch b, predicted index i and target index j, the number
      -1/2 * ( ((4 + sum_d la) - sum_d lb - sum_d exp(la) * exp(-lb))
               - ((sum_d mu_a^2 * exp(-lb) - 2 * sum_d mu_a * (mu_b * exp(-lb))) + sum_d mu_b^2 * exp(-lb)) ),
  then takes the minimum over i for every j and sums over j, takes the minimum over j for every i and sums over i,
  and adds the two sums.  This module proves, at the ideal (extended real) values:
   * the table entry read at (b, i, j) is exactly `pair x0 x1 x2 x3 b i j`, term by term: every broadcast reads its
     operand at the evident coordinates and every contraction over d is the sum over the four coordinates (`entry_eq`);
   * a minimum reduction from the top element over one axis is the greatest lower bound of the entries along that axis,
     so the first reduction gives the column minima (`colMin`) and the second the row minima (`rowMin`);
   * the two add-reductions start from zero, so each is the plain sum of those minima, and the result is their sum:
     the result array is the chamfer loss of `pair` (`reference_isChamfer`).
-/
import proofs.«153607_j72688026517737_2_alg».proof.Proof.Gen.ReferenceIdeal.Read
import proofs.«153607_j72688026517737_2_alg».proof.Proof.ChamferSpec
import Idealize.ShloMosaic.Lib.ValueIdx
import Idealize.ShloMosaic.Lib.IdealHost

noncomputable section

namespace Cert.Chamfer.Reference

open Idealize.ShloMosaic Idealize.ShloMosaic.ValueIdx Cert.Lib.MinOn
open Cert.ReferenceIdeal Cert.ReferenceIdeal.Gen Cert.ReferenceIdeal.Read
open scoped BigOperators

/-- The table entry the reference computes at (b, i, j) is the pairwise divergence `pair`, term by term. -/
theorem entry_eq (x0 x1 x2 x3 : (⟨Cert.ReferenceIdeal.S8x2048x4, .f32⟩ : BufTy).Contents (Elt Ideal))
    (b : Fin 8) (i j : Fin 2048) :
    val_main_v29 (F := Ideal) x0 x1 x2 x3 (ix3 b i j) = pair x0 x1 x2 x3 b i j := by
  -- every index a broadcast or a contraction reads at is (b, i, d) or (b, j, d)
  have e2 : ∀ k : Fin 4, idx_main_v2 (idx_main_v19 (idx_main_v23 (ix3 b i j))) k = ix3 b i k := fun k =>
    funext fun a => Fin.ext (by match a with | ⟨0, _⟩ => rfl | ⟨1, _⟩ => rfl | ⟨2, _⟩ => rfl)
  have e3 : ∀ k : Fin 4, idx_main_v3 (idx_main_v22 (idx_main_v24 (ix3 b i j))) k = ix3 b j k := fun k =>
    funext fun a => Fin.ext (by match a with | ⟨0, _⟩ => rfl | ⟨1, _⟩ => rfl | ⟨2, _⟩ => rfl)
  have e15 : ∀ k : Fin 4, idx_main_v15 (idx_main_v16 (idx_main_v17 (ix3 b i j))) k = ix3 b j k := fun k =>
    funext fun a => Fin.ext (by match a with | ⟨0, _⟩ => rfl | ⟨1, _⟩ => rfl | ⟨2, _⟩ => rfl)
  have l5 : ∀ k : Fin 4, lidx_main_v5 (ix3 b i j) k = ix3 b i k := fun k =>
    funext fun a => Fin.ext (by match a with | ⟨0, _⟩ => rfl | ⟨1, _⟩ => rfl | ⟨2, _⟩ => rfl)
  have r5 : ∀ k : Fin 4, ridx_main_v5 (ix3 b i j) k = ix3 b j k := fun k =>
    funext fun a => Fin.ext (by match a with | ⟨0, _⟩ => rfl | ⟨1, _⟩ => rfl | ⟨2, _⟩ => rfl)
  have l7 : ∀ k : Fin 4, lidx_main_v7 (ix3 b i j) k = ix3 b i k := fun k =>
    funext fun a => Fin.ext (by match a with | ⟨0, _⟩ => rfl | ⟨1, _⟩ => rfl | ⟨2, _⟩ => rfl)
  have r7 : ∀ k : Fin 4, ridx_main_v7 (ix3 b i j) k = ix3 b j k := fun k =>
    funext fun a => Fin.ext (by match a with | ⟨0, _⟩ => rfl | ⟨1, _⟩ => rfl | ⟨2, _⟩ => rfl)
  have l9 : ∀ k : Fin 4, lidx_main_v9 (ix3 b i j) k = ix3 b i k := fun k =>
    funext fun a => Fin.ext (by match a with | ⟨0, _⟩ => rfl | ⟨1, _⟩ => rfl | ⟨2, _⟩ => rfl)
  have r9 : ∀ k : Fin 4, ridx_main_v9 (ix3 b i j) k = ix3 b j k := fun k =>
    funext fun a => Fin.ext (by match a with | ⟨0, _⟩ => rfl | ⟨1, _⟩ => rfl | ⟨2, _⟩ => rfl)
  unfold pair
  simp only [val_main_v29_apply, val_main_v28_apply, val_main_cst_4_apply, val_main_v27_apply, val_main_v26_apply,
    val_main_v25_apply, val_main_v23_apply, val_main_v21_apply, val_main_v20_apply, val_main_cst_3_apply,
    val_main_v19_apply, val_main_v2_apply, val_main_cst_apply, val_main_v24_apply, val_main_v22_apply,
    val_main_v3_apply, val_main_cst_0_apply, val_main_v5_apply, val_main_v4_apply, val_main_v1_apply,
    val_main_v0_apply, val_main_v18_apply, val_main_v12_apply, val_main_v7_apply, val_main_v6_apply,
    val_main_v11_apply, val_main_v10_apply, val_main_cst_1_apply, val_main_v9_apply, val_main_v8_apply,
    val_main_v17_apply, val_main_v16_apply, val_main_v15_apply, val_main_cst_2_apply, val_main_v14_apply,
    val_main_v13_apply,
    Ideal.mulf_def, Ideal.addf_def, Ideal.subf_def, Ideal.negf_def, Ideal.hostNegf_def, Ideal.hostUnary_exp_def,
    Ideal.ofBits_def]
  simp only [e2, e3, e15, l5, r5, l7, r7, l9, r9]

/-- The first minimum reduction, read at (b, j): the greatest lower bound over the predicted index i of the table's
    column j.  The reduction starts from the top element, and the source index over (b, j) with coordinate i inserted
    on the reduced axis is (b, i, j). -/
theorem colMin (x0 x1 x2 x3 : (⟨Cert.ReferenceIdeal.S8x2048x4, .f32⟩ : BufTy).Contents (Elt Ideal))
    (b : Fin 8) (j : Fin 2048) :
    IsMinOn (fun _ : Fin 2048 => True) (fun i => pair x0 x1 x2 x3 b i j)
      (val_main_v30 (F := Ideal) x0 x1 x2 x3 (ix2 b j)) := by
  unfold val_main_v30
  have key := hostReduce_minimumf_isMinOn (φ := .f32) (val_main_v29 (F := Ideal) x0 x1 x2 x3)
    (val_main_cst_5 (F := Ideal)) reducesTo_S8x2048x2048_S8x2048_d1 (by decide) h_S_
    (by rw [val_main_cst_5_apply]; exact posInf_eq) (ix2 b j)
  refine key.congr (fun _ => Iff.rfl) (fun i _ => ?_)
  refine (congrArg (val_main_v29 (F := Ideal) x0 x1 x2 x3) ?_).trans (entry_eq x0 x1 x2 x3 b i j)
  exact funext fun a => Fin.ext (by match a with | ⟨0, _⟩ => rfl | ⟨1, _⟩ => rfl | ⟨2, _⟩ => rfl)

/-- The second minimum reduction, read at (b, i): the greatest lower bound over the target index j of the table's
    row i; the inserted index is again (b, i, j). -/
theorem rowMin (x0 x1 x2 x3 : (⟨Cert.ReferenceIdeal.S8x2048x4, .f32⟩ : BufTy).Contents (Elt Ideal))
    (b : Fin 8) (i : Fin 2048) :
    IsMinOn (fun _ : Fin 2048 => True) (fun j => pair x0 x1 x2 x3 b i j)
      (val_main_v32 (F := Ideal) x0 x1 x2 x3 (ix2 b i)) := by
  unfold val_main_v32
  have key := hostReduce_minimumf_isMinOn (φ := .f32) (val_main_v29 (F := Ideal) x0 x1 x2 x3)
    (val_main_cst_7 (F := Ideal)) reducesTo_S8x2048x2048_S8x2048_d2 (by decide) h_S_
    (by rw [val_main_cst_7_apply]; exact posInf_eq) (ix2 b i)
  refine key.congr (fun _ => Iff.rfl) (fun j _ => ?_)
  refine (congrArg (val_main_v29 (F := Ideal) x0 x1 x2 x3) ?_).trans (entry_eq x0 x1 x2 x3 b i j)
  exact funext fun a => Fin.ext (by match a with | ⟨0, _⟩ => rfl | ⟨1, _⟩ => rfl | ⟨2, _⟩ => rfl)

/-- the reference's result array is the chamfer loss of the pairwise table `pair` of its four arguments -/
theorem reference_isChamfer (x0 x1 x2 x3 : (⟨Cert.ReferenceIdeal.S8x2048x4, .f32⟩ : BufTy).Contents (Elt Ideal)) :
    Cert.Chamfer.IsChamfer (Cert.Chamfer.pair x0 x1 x2 x3)
      (fun b : Fin 8 => Cert.ReferenceIdeal.Read.val_main_v34 (F := Ideal) x0 x1 x2 x3 (ValueIdx.ix1 b)) := by
  refine ⟨fun b j => val_main_v30 (F := Ideal) x0 x1 x2 x3 (ix2 b j),
    fun b i => val_main_v32 (F := Ideal) x0 x1 x2 x3 (ix2 b i),
    fun b j => colMin x0 x1 x2 x3 b j, fun b i => rowMin x0 x1 x2 x3 b i, fun b => ?_⟩
  -- each add-reduction is zero plus the sum over the second coordinate
  show val_main_v34 (F := Ideal) x0 x1 x2 x3 (ix1 b) = _
  rw [val_main_v34_apply, val_main_v31_apply, val_main_v33_apply, val_main_cst_6_apply, val_main_cst_8_apply]
  simp only [Ideal.addf_def, Ideal.ofBits_def]
  rw [show Ideal.ofBits .f32 0x00000000#32 = (0 : EReal) from zero_eq, zero_add, zero_add]
  refine congrArg₂ (· + ·) (Finset.sum_congr rfl fun k _ => congrArg _ ?_) (Finset.sum_congr rfl fun k _ => congrArg _ ?_)
  · exact funext fun a => Fin.ext (by match a with | ⟨0, _⟩ => rfl | ⟨1, _⟩ => rfl)
  · exact funext fun a => Fin.ext (by match a with | ⟨0, _⟩ => rfl | ⟨1, _⟩ => rfl)

end Cert.Chamfer.Reference

end
-- ==== Proof.KernelVsReference.lean ====
/-
  THE KERNEL'S RESULT ARRAY IS THE REFERENCE'S, FOR REAL-VALUED ARGUMENTS.

  Three facts meet here.
   * The table the kernel accumulates over is the fused arrangement of the features the host operations prepared, and
     the width-8 contraction splits into its first four terms, ½·(exp(la) + μa²)·exp(−lb), and its last four,
     μa·(−μb·exp(−lb)); with the two biases this is the expanded divergence `pair` whenever every argument entry is
     a real number (distributivity is what needs that) — `fused_features_eq_pair`.
   * Under the precondition every argument entry is a real number.
   * The kernel's result is the chamfer loss of its table and the reference's result is the chamfer loss of `pair`;
     the loss is a function of the table.
  So the two result arrays agree at every index (`arrays_eq`).
-/
import proofs.«153607_j72688026517737_2_alg».proof.Proof.KernelAcc
import proofs.«153607_j72688026517737_2_alg».proof.Proof.KernelResult
import proofs.«153607_j72688026517737_2_alg».proof.Proof.HostRegion
import proofs.«153607_j72688026517737_2_alg».proof.Proof.HostFeaturesRead
import proofs.«153607_j72688026517737_2_alg».proof.Proof.FusedAlgebra
import proofs.«153607_j72688026517737_2_alg».proof.Proof.FiniteInputs
import proofs.«153607_j72688026517737_2_alg».proof.Proof.ReferenceLoss

noncomputable section

open Idealize.ShloMosaic Idealize.ShloMosaic.TcCoe Idealize.SL.Sem Idealize.ShloMosaic.ValueIdx
open scoped BigOperators

namespace Cert.Chamfer.Bridge

open Cert.KernelIdeal Cert.KernelIdeal.Gen Cert.KernelIdeal.Features Cert.Chamfer

/-- A sum of eight terms is the sum of its first four plus the sum of its last four. -/
theorem sum_eight (f : Fin 8 → EReal) :
    ∑ k : Fin 8, f k = (∑ d : Fin 4, f (Fin.castAdd 4 d)) + ∑ d : Fin 4, f (Fin.natAdd 4 d) :=
  Fin.sum_univ_add (a := 4) (b := 4) f

/-- The fused table of the prepared features is the expanded divergence, for real-valued arguments. -/
theorem fused_features_eq_pair (x0 x1 x2 x3 : In)
    (h0 : ∀ i, ∃ r : ℝ, x0 i = (r : EReal)) (h1 : ∀ i, ∃ r : ℝ, x1 i = (r : EReal))
    (h2 : ∀ i, ∃ r : ℝ, x2 i = (r : EReal)) (h3 : ∀ i, ∃ r : ℝ, x3 i = (r : EReal))
    (b : Fin 8) (i j : Fin 2048) :
    pairFused (lhsAug x0 x1) (rhsAug x2 x3) (biasPred x1) (biasTarget x2 x3) b i j = pair x0 x1 x2 x3 b i j := by
  unfold pairFused
  rw [sum_eight (fun k => lhsAug x0 x1 (ix3 b k i) * rhsAug x2 x3 (ix3 b k j))]
  simp only [lhsAug_lo, lhsAug_hi, rhsAug_lo, rhsAug_hi, biasPred_apply, biasTarget_apply]
  exact fused_eq_pair x0 x1 x2 x3 h0 h1 h2 h3 b i j

variable (m : (ℓ : Loc nD τ sig) → Buf (Elt Ideal) ℓ)

/-- The table the kernel works on is the expanded divergence of the arguments as launched. -/
theorem table_eq_pair (c : Dev nD)
    (hpre : Cert.Pre_finite_inputs.fn (F := Ideal) (m ((c : Thread nD τ).loc main_arg0)) (m ((c : Thread nD τ).loc main_arg1)) (m ((c : Thread nD τ).loc main_arg2)) (m ((c : Thread nD τ).loc main_arg3)) = fun _ => 1#1)
    (b : Fin 8) (i j : Fin 2048) :
    Acc.table m c b i j = pair (m ((c : Thread nD τ).loc main_arg0)) (m ((c : Thread nD τ).loc main_arg1)) (m ((c : Thread nD τ).loc main_arg2)) (m ((c : Thread nD τ).loc main_arg3)) b i j := by
  obtain ⟨r0, r1, r2, r3⟩ := Cert.Chamfer.Finite.real_of_pre _ _ _ _ hpre
  show pairFused (V m c main_v23) (V m c main_v24) (V m c main_v16) (V m c main_v8) b i j = _
  rw [Region.V_lhs m c, Region.V_rhs m c, Region.V_biasPred m c, Region.V_biasTarget m c]
  exact fused_features_eq_pair _ _ _ _ r0 r1 r2 r3 b i j

/-- The kernel's result array after its run is the reference's result term of the same arguments. -/
theorem arrays_eq (c : Dev nD)
    (hpre : Cert.Pre_finite_inputs.fn (F := Ideal) (m ((c : Thread nD τ).loc main_arg0)) (m ((c : Thread nD τ).loc main_arg1)) (m ((c : Thread nD τ).loc main_arg2)) (m ((c : Thread nD τ).loc main_arg3)) = fun _ => 1#1) :
    (dats m 0 c).arrAt 4 cfg0.N
      = Cert.ReferenceIdeal.Read.val_main_v34 (F := Ideal) (m ((c : Thread nD τ).loc main_arg0)) (m ((c : Thread nD τ).loc main_arg1)) (m ((c : Thread nD τ).loc main_arg2)) (m ((c : Thread nD τ).loc main_arg3)) := by
  have hk := (Acc.kernel_isChamfer m c Final.last_lt).congr (table_eq_pair m c hpre)
  have hr := Reference.reference_isChamfer (m ((c : Thread nD τ).loc main_arg0)) (m ((c : Thread nD τ).loc main_arg1)) (m ((c : Thread nD τ).loc main_arg2)) (m ((c : Thread nD τ).loc main_arg3))
  have e := hk.unique hr
  rw [Final.final_result m c]
  funext i
  obtain ⟨b, rfl⟩ : ∃ b : Fin 8, i = ix1 b := ⟨i 0, eq_ix1 i⟩
  exact congrFun e b

end Cert.Chamfer.Bridge

end
-- ==== Proof.lean ====
/-
  The kernel computes, for eight batches of 2048 predicted and 2048 target diagonal Gaussians in dimension 4, the chamfer
  loss under the Kullback-Leibler divergence:  Σ_j min_i KL(i ‖ j) + Σ_i min_j KL(i ‖ j).  Its reference forms the
  [8, 2048, 2048] table of divergences from three contractions over the dimension and reduces it twice. The kernel
  instead prepares, on the host, two augmented feature arrays and two bias vectors, so that one contraction of width 8
  plus the biases gives the same table, and walks the predicted Gaussians in sixteen tiles of 128, carrying a running
  column minimum and a running sum of row minima between tiles.

  The claim is proved in five parts: the three frames (the two kernel programs' are generated; the reference's is its
  generated run with the result forgotten), `preserves` (nothing was rewritten: `True`), and the algebraic claim,
  whose kernel side is the generated frame run with the result array named, whose reference side is the generated run,
  and whose middle is `Cert.Chamfer.Bridge.arrays_eq`: under the precondition (every input finite, hence real) the two
  result arrays are one function of the arguments. The precondition is used exactly once, for the distributive law
  that identifies the fused table with the expanded one; the sums and minima need no finiteness.
-/
import proofs.«153607_j72688026517737_2_alg».proof.Defs
import proofs.«153607_j72688026517737_2_alg».proof.Proof.Gen.Kernel
import proofs.«153607_j72688026517737_2_alg».proof.Proof.Gen.Kernel.Skeleton
import proofs.«153607_j72688026517737_2_alg».proof.Proof.Gen.Kernel.Launch
import proofs.«153607_j72688026517737_2_alg».proof.Proof.Gen.Kernel.Points
import proofs.«153607_j72688026517737_2_alg».proof.Proof.Gen.Kernel.Frame
import proofs.«153607_j72688026517737_2_alg».proof.Proof.Gen.KernelIdeal
import proofs.«153607_j72688026517737_2_alg».proof.Proof.Gen.KernelIdeal.Skeleton
import proofs.«153607_j72688026517737_2_alg».proof.Proof.Gen.KernelIdeal.Launch
import proofs.«153607_j72688026517737_2_alg».proof.Proof.Gen.KernelIdeal.Points
import proofs.«153607_j72688026517737_2_alg».proof.Proof.Gen.KernelIdeal.Frame
import proofs.«153607_j72688026517737_2_alg».proof.Proof.Gen.ReferenceIdeal
import proofs.«153607_j72688026517737_2_alg».proof.Proof.Gen.Pre_finite_inputs
import proofs.«153607_j72688026517737_2_alg».proof.Proof.Gen.KernelIdeal.Value
import proofs.«153607_j72688026517737_2_alg».proof.Proof.Gen.ReferenceIdeal.Run
import proofs.«153607_j72688026517737_2_alg».proof.Proof.Gen.ReferenceIdeal.Read
import proofs.«153607_j72688026517737_2_alg».proof.Proof.KernelVsReference
import Idealize.ShloMosaic.Adequacy
import Idealize.ShloMosaic.Init

noncomputable section

namespace Cert.Proof

open Idealize.ShloMosaic Idealize.SL.Sem Cert.Kernel

/-- Both idealized programs, run from memories that agree on the four arguments, end with the same result array: the
    kernel's run names its result array, the reference's run names its composed term, and for finite arguments the
    two are equal. -/
theorem algebraic : Cert.algebraic_KernelIdeal_ReferenceIdeal := by
  intro m ρ m' ρ' hpre hagree
  refine ⟨fun c => (Cert.KernelIdeal.Gen.dats m 0 c).arrAt 4 Cert.KernelIdeal.cfg0.N,
    Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, (hagree c).1, (hagree c).2.1, (hagree c).2.2.1, (hagree c).2.2.2]
  exact (Cert.Chamfer.Bridge.arrays_eq m c (hpre c)).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
